-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x256x256 : Shape := ⟨4, ![4, 256, 256, 256]⟩
abbrev S_ : Shape := ⟨0, ![]⟩

class Facts : Prop where
  bcast_S_S4x256x256x256 : S_.BroadcastsInDim S4x256x256x256 (![] : Fin 0 → Fin S4x256x256x256.rank)
  reducesTo_S4x256x256x256_S_d0_1_2_3 : S4x256x256x256.ReducesTo [0, 1, 2, 3] S_
  h_S_ : 0 < S_.numel

variable [Facts]

def fn {F : FTy → Type} [FloatOps F] (main_arg0 : FVec F S4x256x256x256 .f32) : IVec S_ 1 :=
  let main_v0 : FVec F S4x256x256x256 .f32 := Host.absf main_arg0
  let main_cst : FVec F S_ .f32 := constant S_ .f32 0x7F800000#32
  let main_v1 : FVec F S4x256x256x256 .f32 := broadcastInDim S4x256x256x256 ![] bcast_S_S4x256x256x256 main_cst
  let main_v2 : IVec S4x256x256x256 1 := cmpf .olt main_v0 main_v1
  let main_c : IVec S_ 1 := constantI S_ 1 1#1
  let main_v3 : IVec S_ 1 := (fun x v => Host.reduce IntOp.andi x v reducesTo_S4x256x256x256_S_d0_1_2_3 h_S_) main_v2 main_c
  main_v3
-- ==== Kernel.lean ====
abbrev S4x256x256x256 : Shape := ⟨4, ![4, 256, 256, 256]⟩
abbrev S4x3x256x256x256 : Shape := ⟨5, ![4, 3, 256, 256, 256]⟩
abbrev S1x8x256x256 : Shape := ⟨4, ![1, 8, 256, 256]⟩
abbrev S1x1x256x256 : Shape := ⟨4, ![1, 1, 256, 256]⟩
abbrev S1x3x8x256x256 : Shape := ⟨5, ![1, 3, 8, 256, 256]⟩
abbrev S8x256x256 : Shape := ⟨3, ![8, 256, 256]⟩
abbrev S256x256 : Shape := ⟨2, ![256, 256]⟩
abbrev S7x256x256 : Shape := ⟨3, ![7, 256, 256]⟩
abbrev S1x256x256 : Shape := ⟨3, ![1, 256, 256]⟩
abbrev S1x1x8x256x256 : Shape := ⟨5, ![1, 1, 8, 256, 256]⟩

abbrev nBuf : Space → Nat
  | .hbm => 2
  | .vmem => 8
  | .smem => 0
  | _ => 0

abbrev bufTy : (tb : Table) → Fin (tcTables nBuf tb) → BufTy
  | .hbm, ⟨0, _⟩ => ⟨S4x256x256x256, .f32⟩
  | .hbm, ⟨1, _⟩ => ⟨S4x3x256x256x256, .f32⟩
  | .local _ .vmem, ⟨0, _⟩ => ⟨S1x8x256x256, .f32⟩
  | .local _ .vmem, ⟨1, _⟩ => ⟨S1x8x256x256, .f32⟩
  | .local _ .vmem, ⟨2, _⟩ => ⟨S1x1x256x256, .f32⟩
  | .local _ .vmem, ⟨3, _⟩ => ⟨S1x1x256x256, .f32⟩
  | .local _ .vmem, ⟨4, _⟩ => ⟨S1x1x256x256, .f32⟩
  | .local _ .vmem, ⟨5, _⟩ => ⟨S1x1x256x256, .f32⟩
  | .local _ .vmem, ⟨6, _⟩ => ⟨S1x3x8x256x256, .f32⟩
  | .local _ .vmem, ⟨7, _⟩ => ⟨S1x3x8x256x256, .f32⟩
  | _, _ => ⟨S4x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c256_i32 : BitVec 32 := 256#32
  let v1 : BitVec 32 := Scalar.addi v0 c256_i32
  let c1_i32 : BitVec 32 := 1#32
  let v2 : BitVec 32 := Scalar.subi v1 c1_i32
  let c256_i32_0 : BitVec 32 := 256#32
  let c0_i32 : BitVec 32 := 0#32
  let v3 : BitVec 1 := Scalar.cmpi .eq c256_i32_0 c0_i32
  let c1_i32_1 : BitVec 32 := 1#32
  let v4 : BitVec 32 := Scalar.select v3 c1_i32_1 c256_i32_0
  let v5 : BitVec 32 := Scalar.remsi v2 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c0_i32_5 : BitVec 32 := 0#32
  let c0_i32_6 : BitVec 32 := 0#32
  let c0_i32_7 : BitVec 32 := 0#32
  ![arg0.toNat, v12.toNat, c0_i32_5.toNat, c0_i32_6.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let c256_i32 : BitVec 32 := 256#32
  let c0_i32 : BitVec 32 := 0#32
  let v2 : BitVec 1 := Scalar.cmpi .eq c256_i32 c0_i32
  let c1_i32 : BitVec 32 := 1#32
  let v3 : BitVec 32 := Scalar.select v2 c1_i32 c256_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![arg0.toNat, v11.toNat, c0_i32_4.toNat, c0_i32_5.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x8x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x8x256x256_S1x8x256x256_0_0_0_0 : ∀ a, (![0, 0, 0, 0] : Fin 4 → Nat) a + S1x8x256x256.size a ≤ S1x8x256x256.size a
  h_S1x8x256x256 : 0 < S1x8x256x256.numel
  shapeCasts_S1x8x256x256_S8x256x256 : S1x8x256x256.ShapeCasts S8x256x256
  inb_S1x1x256x256_S1x1x256x256_0_0_0_0 : ∀ a, (![0, 0, 0, 0] : Fin 4 → Nat) a + S1x1x256x256.size a ≤ S1x1x256x256.size a
  h_S1x1x256x256 : 0 < S1x1x256x256.numel
  shapeCasts_S1x1x256x256_S256x256 : S1x1x256x256.ShapeCasts S256x256
  slices_S8x256x256_o1_0_0_S7x256x256 : S8x256x256.Slices ![1, 0, 0] S7x256x256
  shapeCasts_S256x256_S1x256x256 : S256x256.ShapeCasts S1x256x256
  concatenates_S7x256x256_S1x256x256_S8x256x256_d0 : Shape.Concatenates [S7x256x256, S1x256x256] S8x256x256 0
  slices_S8x256x256_o0_0_0_S7x256x256 : S8x256x256.Slices ![0, 0, 0] S7x256x256
  concatenates_S1x256x256_S7x256x256_S8x256x256_d0 : Shape.Concatenates [S1x256x256, S7x256x256] S8x256x256 0
  inb_S1x3x8x256x256_S1x1x8x256x256_0_0_0_0_0 : ∀ a, (![0, 0, 0, 0, 0] : Fin 5 → Nat) a + S1x1x8x256x256.size a ≤ S1x3x8x256x256.size a
  h_S1x1x8x256x256 : 0 < S1x1x8x256x256.numel
  shapeCasts_S1x1x8x256x256_S8x256x256 : S1x1x8x256x256.ShapeCasts S8x256x256
  shapeCasts_S8x256x256_S1x1x8x256x256 : S8x256x256.ShapeCasts S1x1x8x256x256
  rotates_S8x256x256_d1 : S8x256x256.Rotates 1 none
  inb_S1x3x8x256x256_S1x1x8x256x256_0_1_0_0_0 : ∀ a, (![0, 1, 0, 0, 0] : Fin 5 → Nat) a + S1x1x8x256x256.size a ≤ S1x3x8x256x256.size a
  rotates_S8x256x256_d2 : S8x256x256.Rotates 2 none
  inb_S1x3x8x256x256_S1x1x8x256x256_0_2_0_0_0 : ∀ a, (![0, 2, 0, 0, 0] : Fin 5 → Nat) a + S1x1x8x256x256.size a ≤ S1x3x8x256x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x256.size a ≤ S4x256x256x256.size a
  hwx0_0 : ∀ i : grid0.Coords, EltTy.bits .f32 = 32 ∨ (Rect.block (s := S4x256x256x256) S1x8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256x256.size a ≤ S4x256x256x256.size a
  hwx0_1 : ∀ i : grid0.Coords, EltTy.bits .f32 = 32 ∨ (Rect.block (s := S4x256x256x256) S1x1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256x256.size a ≤ S4x256x256x256.size a
  hwx0_2 : ∀ i : grid0.Coords, EltTy.bits .f32 = 32 ∨ (Rect.block (s := S4x256x256x256) S1x1x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x8x256x256.size a ≤ S4x3x256x256x256.size a
  hwx0_3 : ∀ i : grid0.Coords, EltTy.bits .f32 = 32 ∨ (Rect.block (s := S4x3x256x256x256) S1x3x8x256x256.size (cc0_transform_3 i) (hinb0_3 i)).WholeWords (EltTy.packing .f32)

variable [Facts₀]

abbrev win0_0 : Pipeline.Window sig grid0 :=
  Pipeline.Window.ofSpec (Memref.whole main_arg0) S1x8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x3x8x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x256x256x256 : Shape := ⟨4, ![4, 256, 256, 256]⟩
abbrev S4x255x256x256 : Shape := ⟨4, ![4, 255, 256, 256]⟩
abbrev S4x1x256x256 : Shape := ⟨4, ![4, 1, 256, 256]⟩
abbrev S_ : Shape := ⟨0, ![]⟩
abbrev S4x256x255x256 : Shape := ⟨4, ![4, 256, 255, 256]⟩
abbrev S4x256x1x256 : Shape := ⟨4, ![4, 256, 1, 256]⟩
abbrev S4x256x256x255 : Shape := ⟨4, ![4, 256, 256, 255]⟩
abbrev S4x256x256x1 : Shape := ⟨4, ![4, 256, 256, 1]⟩
abbrev S4x1x256x256x256 : Shape := ⟨5, ![4, 1, 256, 256, 256]⟩
abbrev S4x3x256x256x256 : Shape := ⟨5, ![4, 3, 256, 256, 256]⟩

abbrev nBuf : Space → Nat
  | .hbm => 35
  | .vmem => 0
  | .smem => 0
  | _ => 0

abbrev bufTy : (tb : Table) → Fin (tcTables nBuf tb) → BufTy
  | .hbm, ⟨0, _⟩ => ⟨S4x256x256x256, .f32⟩
  | .hbm, ⟨1, _⟩ => ⟨S4x255x256x256, .f32⟩
  | .hbm, ⟨2, _⟩ => ⟨S4x1x256x256, .f32⟩
  | .hbm, ⟨3, _⟩ => ⟨S4x256x256x256, .f32⟩
  | .hbm, ⟨4, _⟩ => ⟨S4x1x256x256, .f32⟩
  | .hbm, ⟨5, _⟩ => ⟨S4x255x256x256, .f32⟩
  | .hbm, ⟨6, _⟩ => ⟨S4x256x256x256, .f32⟩
  | .hbm, ⟨7, _⟩ => ⟨S4x256x256x256, .f32⟩
  | .hbm, ⟨8, _⟩ => ⟨S_, .f32⟩
  | .hbm, ⟨9, _⟩ => ⟨S4x256x256x256, .f32⟩
  | .hbm, ⟨10, _⟩ => ⟨S4x256x256x256, .f32⟩
  | .hbm, ⟨11, _⟩ => ⟨S4x256x255x256, .f32⟩
  | .hbm, ⟨12, _⟩ => ⟨S4x256x1x256, .f32⟩
  | .hbm, ⟨13, _⟩ => ⟨S4x256x256x256, .f32⟩
  | .hbm, ⟨14, _⟩ => ⟨S4x256x1x256, .f32⟩
  | .hbm, ⟨15, _⟩ => ⟨S4x256x255x256, .f32⟩
  | .hbm, ⟨16, _⟩ => ⟨S4x256x256x256, .f32⟩
  | .hbm, ⟨17, _⟩ => ⟨S4x256x256x256, .f32⟩
  | .hbm, ⟨18, _⟩ => ⟨S_, .f32⟩
  | .hbm, ⟨19, _⟩ => ⟨S4x256x256x256, .f32⟩
  | .hbm, ⟨20, _⟩ => ⟨S4x256x256x256, .f32⟩
  | .hbm, ⟨21, _⟩ => ⟨S4x256x256x255, .f32⟩
  | .hbm, ⟨22, _⟩ => ⟨S4x256x256x1, .f32⟩
  | .hbm, ⟨23, _⟩ => ⟨S4x256x256x256, .f32⟩
  | .hbm, ⟨24, _⟩ => ⟨S4x256x256x1, .f32⟩
  | .hbm, ⟨25, _⟩ => ⟨S4x256x256x255, .f32⟩
  | .hbm, ⟨26, _⟩ => ⟨S4x256x256x256, .f32⟩
  | .hbm, ⟨27, _⟩ => ⟨S4x256x256x256, .f32⟩
  | .hbm, ⟨28, _⟩ => ⟨S_, .f32⟩
  | .hbm, ⟨29, _⟩ => ⟨S4x256x256x256, .f32⟩
  | .hbm, ⟨30, _⟩ => ⟨S4x256x256x256, .f32⟩
  | .hbm, ⟨31, _⟩ => ⟨S4x1x256x256x256, .f32⟩
  | .hbm, ⟨32, _⟩ => ⟨S4x1x256x256x256, .f32⟩
  | .hbm, ⟨33, _⟩ => ⟨S4x1x256x256x256, .f32⟩
  | .hbm, ⟨34, _⟩ => ⟨S4x3x256x256x256, .f32⟩
  | _, _ => ⟨S4x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev main_call1_v0 : Ref sig .tc := ⟨.hbm, 4, rfl⟩
abbrev main_call1_v1 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_call2_v0 : Ref sig .tc := ⟨.hbm, 11, rfl⟩
abbrev main_call2_v1 : Ref sig .tc := ⟨.hbm, 12, rfl⟩
abbrev main_v5 : Ref sig .tc := ⟨.hbm, 13, rfl⟩
abbrev main_call3_v0 : Ref sig .tc := ⟨.hbm, 14, rfl⟩
abbrev main_call3_v1 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_call4_v0 : Ref sig .tc := ⟨.hbm, 21, rfl⟩
abbrev main_call4_v1 : Ref sig .tc := ⟨.hbm, 22, rfl⟩
abbrev main_v10 : Ref sig .tc := ⟨.hbm, 23, rfl⟩
abbrev main_call5_v0 : Ref sig .tc := ⟨.hbm, 24, rfl⟩
abbrev main_call5_v1 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]

class Facts₀ : Prop where
  slices_S4x256x256x256_S4x255x256x256_0_1_0_0 : S4x256x256x256.Slices ![0, 1, 0, 0] S4x255x256x256
  slices_S4x256x256x256_S4x1x256x256_0_0_0_0 : S4x256x256x256.Slices ![0, 0, 0, 0] S4x1x256x256
  concatenates_S4x255x256x256_S4x1x256x256_S4x256x256x256_d1 : Shape.Concatenates [S4x255x256x256, S4x1x256x256] S4x256x256x256 1
  slices_S4x256x256x256_S4x1x256x256_0_255_0_0 : S4x256x256x256.Slices ![0, 255, 0, 0] S4x1x256x256
  slices_S4x256x256x256_S4x255x256x256_0_0_0_0 : S4x256x256x256.Slices ![0, 0, 0, 0] S4x255x256x256
  concatenates_S4x1x256x256_S4x255x256x256_S4x256x256x256_d1 : Shape.Concatenates [S4x1x256x256, S4x255x256x256] S4x256x256x256 1
  bcast_S_S4x256x256x256 : S_.BroadcastsInDim S4x256x256x256 (![] : Fin 0 → Fin S4x256x256x256.rank)
  slices_S4x256x256x256_S4x256x255x256_0_0_1_0 : S4x256x256x256.Slices ![0, 0, 1, 0] S4x256x255x256
  slices_S4x256x256x256_S4x256x1x256_0_0_0_0 : S4x256x256x256.Slices ![0, 0, 0, 0] S4x256x1x256
  concatenates_S4x256x255x256_S4x256x1x256_S4x256x256x256_d2 : Shape.Concatenates [S4x256x255x256, S4x256x1x256] S4x256x256x256 2
  slices_S4x256x256x256_S4x256x1x256_0_0_255_0 : S4x256x256x256.Slices ![0, 0, 255, 0] S4x256x1x256
  slices_S4x256x256x256_S4x256x255x256_0_0_0_0 : S4x256x256x256.Slices ![0, 0, 0, 0] S4x256x255x256
  concatenates_S4x256x1x256_S4x256x255x256_S4x256x256x256_d2 : Shape.Concatenates [S4x256x1x256, S4x256x255x256] S4x256x256x256 2
  slices_S4x256x256x256_S4x256x256x255_0_0_0_1 : S4x256x256x256.Slices ![0, 0, 0, 1] S4x256x256x255
  slices_S4x256x256x256_S4x256x256x1_0_0_0_0 : S4x256x256x256.Slices ![0, 0, 0, 0] S4x256x256x1
  concatenates_S4x256x256x255_S4x256x256x1_S4x256x256x256_d3 : Shape.Concatenates [S4x256x256x255, S4x256x256x1] S4x256x256x256 3
  slices_S4x256x256x256_S4x256x256x1_0_0_0_255 : S4x256x256x256.Slices ![0, 0, 0, 255] S4x256x256x1
  slices_S4x256x256x256_S4x256x256x255_0_0_0_0 : S4x256x256x256.Slices ![0, 0, 0, 0] S4x256x256x255
  concatenates_S4x256x256x1_S4x256x256x255_S4x256x256x256_d3 : Shape.Concatenates [S4x256x256x1, S4x256x256x255] S4x256x256x256 3
  bcast_S4x256x256x256_S4x1x256x256x256_0_2_3_4 : S4x256x256x256.BroadcastsInDim S4x1x256x256x256 (![0, 2, 3, 4] : Fin 4 → Fin S4x1x256x256x256.rank)
  concatenates_S4x1x256x256x256_S4x1x256x256x256_S4x1x256x256x256_S4x3x256x256x256_d1 : Shape.Concatenates [S4x1x256x256x256, S4x1x256x256x256, S4x1x256x256x256] S4x3x256x256x256 1

variable [Facts₀]

class Facts : Prop extends Facts₀ where

variable [Facts]
-- ==== Proof.KernelBody.lean ====
/-
  One grid point of the stencil kernel, as a statement about its four staging buffers.

  At a point the body is handed a slab of eight consecutive planes of the field (`x0`), the single plane just before
  the slab (`x1`) and the single plane just after it (`x2`), the neighbours taken around the end of the axis, and an
  output buffer of three slabs, one per gradient component. It reads the three inputs whole, and writes each of the three
  output slabs whole, one store per component: the difference along the slab axis from the slab shifted by one plane either
  way (the missing plane supplied by `x2`, resp. `x1`), the differences along the two in-plane axes from rotations of the
  slab. Before each store it also reads the output slab it is about to overwrite; nothing depends on what that read returns.

  So after the body the inputs are as they were, and the output buffer holds, whatever it held before, the three stored
  slabs laid side by side (`stored`): the three rectangles tile the buffer.
-/
import proofs.«105765_j85263690760521_2_alg».proof.Proof.Gen.Kernel.Launch
import proofs.«105765_j85263690760521_2_alg».proof.Proof.Gen.Kernel.Skeleton
import proofs.«105765_j85263690760521_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Stencil

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- The whole slab buffer. -/
abbrev slabRect : Rect S1x8x256x256 := Rect.unit (s := S1x8x256x256) ![0, 0, 0, 0] S1x8x256x256.size inb_S1x8x256x256_S1x8x256x256_0_0_0_0
/-- A whole single-plane buffer. -/
abbrev planeRect : Rect S1x1x256x256 := Rect.unit (s := S1x1x256x256) ![0, 0, 0, 0] S1x1x256x256.size inb_S1x1x256x256_S1x1x256x256_0_0_0_0
/-- The output buffer's slab for the component along the slab axis, -/
abbrev outRect0 : Rect S1x3x8x256x256 := Rect.unit (s := S1x3x8x256x256) ![0, 0, 0, 0, 0] S1x1x8x256x256.size inb_S1x3x8x256x256_S1x1x8x256x256_0_0_0_0_0
/-- for the component along the planes' first axis, -/
abbrev outRect1 : Rect S1x3x8x256x256 := Rect.unit (s := S1x3x8x256x256) ![0, 1, 0, 0, 0] S1x1x8x256x256.size inb_S1x3x8x256x256_S1x1x8x256x256_0_1_0_0_0
/-- and for the component along their second. -/
abbrev outRect2 : Rect S1x3x8x256x256 := Rect.unit (s := S1x3x8x256x256) ![0, 2, 0, 0, 0] S1x1x8x256x256.size inb_S1x3x8x256x256_S1x1x8x256x256_0_2_0_0_0

/-! ## What the three stores leave -/

/-- The output buffer after the body, from the three input buffers' contents: the three stored slabs, the last store
    first. -/
def stored (x0 : Vec F S1x8x256x256 .f32) (x1 : Vec F S1x1x256x256 .f32) (x2 : Vec F S1x1x256x256 .f32) : Vec F S1x3x8x256x256 .f32 :=
  View.canon [⟨outRect2, k0_pay1 (k0_pay5 (View.ld x0 slabRect)) (k0_pay6 (View.ld x0 slabRect))⟩,
    ⟨outRect1, k0_pay4 (View.ld x0 slabRect)⟩,
    ⟨outRect0, k0_pay3 (View.ld x0 slabRect) (View.ld x1 planeRect) (View.ld x2 planeRect)⟩]

/-- The three slabs tile the output buffer: every index of it lies in one of them. -/
theorem stored_cover (p2 p1 p0 : Vec F S1x1x8x256x256 .f32) (y : S1x3x8x256x256.Idx) :
    ∃ pc ∈ ([⟨outRect2, p2⟩, ⟨outRect1, p1⟩, ⟨outRect0, p0⟩] : List (View.Piece (Elt F) S1x3x8x256x256 .f32)), y ∈ pc.1.set :=
  View.cover_of_tiled [⟨outRect2, p2⟩, ⟨outRect1, p1⟩, ⟨outRect0, p0⟩] S1x1x8x256x256.size (by rfl) y

/-! ## The body's triple -/

set_option maxHeartbeats 4000000 in
/-- The body on whole staging buffers, the inputs' reading `x0`, `x1`, `x2` and the output's anything, runs to the end
    with the inputs' as they were and the output's at `stored x0 x1 x2`. -/
theorem body_runs (c : Dev nD) (E : Set ℕ) (i : grid0.Coords)
    (arg2 : Memref sig .tc .vmem S1x8x256x256 .f32) (harg2 : arg2.IsWhole) (arg3 : Memref sig .tc .vmem S1x1x256x256 .f32) (harg3 : arg3.IsWhole)
    (arg4 : Memref sig .tc .vmem S1x1x256x256 .f32) (harg4 : arg4.IsWhole) (arg5 : Memref sig .tc .vmem S1x3x8x256x256 .f32) (harg5 : arg5.IsWhole)
    (x0 : Vec F S1x8x256x256 .f32) (x1 : Vec F S1x1x256x256 .f32) (x2 : Vec F S1x1x256x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (stored x0 x1 x2)) -∗ K ⟨⟩))
      ⊢ wp frame (wpE (defs₀ (F := F)) Variants.none c none) E (cc0__fd_kernel i arg2 harg2 arg3 harg3 arg4 harg4 arg5 harg5) K := by
  simp only [cc0__fd_kernel_eq_skeleton]; unfold cc0__fd_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _ _ _)

end Cert.Kernel.Stencil

end
-- ==== Proof.KernelFrame.lean ====
/-
  The whole run of the stencil kernel: every grid point in turn, the pipeline fetching and writing back around the body.

  The field is handed to the kernel THREE times — as the slab window, the window of the plane before the slab and the
  window of the plane after it — so the three input windows stage blocks of ONE array. None of them ever writes it, so
  the array's ownership is dealt among them in three shares (a half, and the two halves of the other half), each window
  reading through its own share; the output array is a different buffer, held outright. With that split stated, the run
  goes point by point: at each of the 128 points the three inputs' staging buffers hold their blocks of the field
  as launched, the body leaves the output's buffer at the three stored slabs (`Stencil.stored` of those blocks), and the
  write-back puts that into the output array's block for the point.

  What is concluded: every weakly fair execution terminates without a fault; at the end each window's array holds what the
  points' write-backs leave of its launch contents, taken in order (`Dat.arrAt … N`) — for the field, what it held at launch.
-/
import proofs.«105765_j85263690760521_2_alg».proof.Proof.KernelBody

set_option maxRecDepth 16384

noncomputable section

namespace Cert.Kernel.Stencil

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The core's buffers when the region is entered: as launched (the program is the region alone). -/
abbrev V (c : Dev nD) (b : Ref sig .tc) : Buf (Elt F) ((c : Thread nD τ).loc b) := m ((c : Thread nD τ).loc b)

/-- The program up to its region is the region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block of its array at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- Per core: the arrays as launched; after the body at point `t` each input's buffer still at its block, the output's at
    the three stored slabs of the input blocks; between points nothing but the core's other scoped buffers (there are
    none); the field's ownership dealt in three among its windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => stored (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = stored (iblk m c 0 t) (iblk m c 1 t) (iblk m c 2 t) := by dsimp only [dats]

/-- Each input window is fetched at every point, so its buffer holds its block when the body runs. -/
theorem before_0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before_1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)
theorem before_2 (c : Dev nD) (t : Fin cfg0.N) (d) : (dats m 0 c).before 2 t d = iblk m c 2 t :=
  ((dats m 0 c).before_fetched 2 t (fetch0_2 t) d).trans (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and what
    the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (body_runs c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation, at every point. -/
theorem body_obligation (c : Dev nD) : BodyObligation (dats (F := F) m 0 c) (defs₀ (F := F)) Variants.none () Set.univ := fun t => by
  rw [bigSep_W0, bigSep_W0]
  exact sound_body m c t

/-! ## Dealing the field's ownership among its three windows -/

/-- The shares the windows hold their arrays at. -/
theorem share_0 (c : Dev nD) : (dats m 0 c).share 0 = fullShare.left := rfl
theorem share_1 (c : Dev nD) : (dats m 0 c).share 1 = fullShare.right.left := rfl
theorem share_2 (c : Dev nD) : (dats m 0 c).share 2 = fullShare.right.right := rfl
theorem share_3 (c : Dev nD) : (dats m 0 c).share 3 = fullShare := rfl

/-- The windows' arrays, window by window, each a whole buffer at its share. -/
theorem arrays_eq (c : Dev nD) (G : (w : Fin cfg0.W) → Buf (Elt F) ((cfg0.win w).arr.view.loc (c.tc : Thread nD τ))) :
    (dats m 0 c).arrays G = bigSep Finset.univ fun w : Fin 4 =>
      (((c.tc : Thread nD τ).loc (Pipeline.arrRef spec0 w)) ↦{(dats m 0 c).share w} G w : sProp 𝕄) := by
  unfold Dat.arrays
  exact bigSep_congr fun w _ => by rw [(arr_whole0 w).set_eq_univ]

/-- The buffers behind the four windows are two: the field and the output array. -/
theorem two_buffers (c : Dev nD) (Ψ : Ref sig .tc → sProp 𝕄) :
    bigSep (Finset.univ.image (Pipeline.arrRef spec0)) Ψ = iprop(Ψ main_arg0 ∗ Ψ main_v0) :=
  bigSep_eq_bigSepL_of_eq [main_arg0, main_v0] (by decide) (by decide) Ψ

/-- Between points the proof data keep only the core's other scoped buffers. -/
theorem Φ_eq (c : Dev nD) (t : Fin (cfg0.N + 1)) :
    (dats m 0 c).Φ t = Pipeline.scopedRest (Ix := Unit) (Name := ℕ) (U := UR sig nD τ) (Lvl := ℕ) (Val := Elt F) spec0 c := rfl

/-- The two buffers behind the four windows — the field, whole, and the output array, whole — make the four windows'
    holdings: the field's full share is its left half, and the two halves of its right half. -/
theorem split_arrays (c : Dev nD) :
    (Pipeline.arrBufs spec0 c (V m c) : sProp 𝕄) ⊢ (dats m 0 c).arrays ((dats m 0 c).arrAt · 0) := by
  rw [arrays_eq, bigSep_W0, share_0, share_1, share_2, share_3]
  unfold Pipeline.arrBufs
  rw [two_buffers (F := F) c]
  iintro ⟨Ha, Ho⟩
  ihave Hs := (pointsTo_share (PosShare.mem_left_op_right fullShare)).1 $$ Ha
  icases Hs with ⟨Hl, Hr⟩
  ihave Hs := (pointsTo_share (PosShare.mem_left_op_right fullShare.right)).1 $$ Hr
  icases Hs with ⟨Hrl, Hrr⟩
  isplitl [Hl]; · iexact Hl
  isplitl [Hrl]; · iexact Hrl
  isplitl [Hrr]; · iexact Hrr
  iexact Ho

/-! ## The run -/

/-- What the run ends with: each window's array at its launch contents overwritten by the points' write-backs, in order. -/
def RunPost (r : PUnit × MemSt nD τ sig (Elt F)) : Prop :=
  ∀ c : Dev nD, ∀ w : Fin cfg0.W,
    r.2.mem (((cfg0).spec w).arr.view.loc (c.tc : Thread nD τ)) = (dats m 0 c).arrAt w cfg0.N

set_option backward.isDefEq.respectTransparency.types false in
/-- From any memory with zero counters, every weakly fair execution of the program terminates without a fault, each
    window's array ending at `arrAt … N`. -/
theorem run_main : θ_run defs (onTc (τ := τ) (main (F := F))) (s₀ m ρ) (RunPost m) :=
  Pipeline.θ_run_region_noSem_shared (Ix := Unit) (Name := ℕ) (U := UR sig nD τ) (Lvl := ℕ) cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none)
    (hsplit := split_arrays m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Φ_eq]
      iintro ⟨-, H⟩
      iexact H)
    (hout := fun c => by
      rw [Φ_eq]
      iintro H
      isplitr; · iempintro
      iexact H)
    (QY := fun _ _ => True)
    (hY := fun c s' => by
      iintro ⟨-, -, HSI⟩
      imodintro
      isplitr; · ipureintro; trivial
      iexact HSI)
    (hQ := fun s h c w => (h c).1 w)

/-- info: 'Cert.Kernel.Stencil.run_main' depends on axioms: [propext, Classical.choice, Quot.sound] -/
#guard_msgs in #print axioms run_main

/-! ## The frame -/

/-- The field ends as launched: no input window is ever written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c 0).trans (((dats m 0 c).arrAt_in 0 rfl _).trans (A_eq m c 0)))) (run_main m ρ)

end Cert.Kernel.Stencil

end
-- ==== Proof.KernelIdealBody.lean ====
/-
  One grid point of the stencil kernel, as a statement about its four staging buffers.

  At a point the body is handed a slab of eight consecutive planes of the field (`x0`), the single plane just before
  the slab (`x1`) and the single plane just after it (`x2`), the neighbours taken around the end of the axis, and an
  output buffer of three slabs, one per gradient component. It reads the three inputs whole, and writes each of the three
  output slabs whole, one store per component: the difference along the slab axis from the slab shifted by one plane either
  way (the missing plane supplied by `x2`, resp. `x1`), the differences along the two in-plane axes from rotations of the
  slab. Before each store it also reads the output slab it is about to overwrite; nothing depends on what that read returns.

  So after the body the inputs are as they were, and the output buffer holds, whatever it held before, the three stored
  slabs laid side by side (`stored`): the three rectangles tile the buffer.
-/
import proofs.«105765_j85263690760521_2_alg».proof.Proof.Gen.KernelIdeal.Launch
import proofs.«105765_j85263690760521_2_alg».proof.Proof.Gen.KernelIdeal.Skeleton
import proofs.«105765_j85263690760521_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Stencil

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- The whole slab buffer. -/
abbrev slabRect : Rect S1x8x256x256 := Rect.unit (s := S1x8x256x256) ![0, 0, 0, 0] S1x8x256x256.size inb_S1x8x256x256_S1x8x256x256_0_0_0_0
/-- A whole single-plane buffer. -/
abbrev planeRect : Rect S1x1x256x256 := Rect.unit (s := S1x1x256x256) ![0, 0, 0, 0] S1x1x256x256.size inb_S1x1x256x256_S1x1x256x256_0_0_0_0
/-- The output buffer's slab for the component along the slab axis, -/
abbrev outRect0 : Rect S1x3x8x256x256 := Rect.unit (s := S1x3x8x256x256) ![0, 0, 0, 0, 0] S1x1x8x256x256.size inb_S1x3x8x256x256_S1x1x8x256x256_0_0_0_0_0
/-- for the component along the planes' first axis, -/
abbrev outRect1 : Rect S1x3x8x256x256 := Rect.unit (s := S1x3x8x256x256) ![0, 1, 0, 0, 0] S1x1x8x256x256.size inb_S1x3x8x256x256_S1x1x8x256x256_0_1_0_0_0
/-- and for the component along their second. -/
abbrev outRect2 : Rect S1x3x8x256x256 := Rect.unit (s := S1x3x8x256x256) ![0, 2, 0, 0, 0] S1x1x8x256x256.size inb_S1x3x8x256x256_S1x1x8x256x256_0_2_0_0_0

/-! ## What the three stores leave -/

/-- The output buffer after the body, from the three input buffers' contents: the three stored slabs, the last store
    first. -/
def stored (x0 : Vec F S1x8x256x256 .f32) (x1 : Vec F S1x1x256x256 .f32) (x2 : Vec F S1x1x256x256 .f32) : Vec F S1x3x8x256x256 .f32 :=
  View.canon [⟨outRect2, k0_pay1 (k0_pay5 (View.ld x0 slabRect)) (k0_pay6 (View.ld x0 slabRect))⟩,
    ⟨outRect1, k0_pay4 (View.ld x0 slabRect)⟩,
    ⟨outRect0, k0_pay3 (View.ld x0 slabRect) (View.ld x1 planeRect) (View.ld x2 planeRect)⟩]

/-- The three slabs tile the output buffer: every index of it lies in one of them. -/
theorem stored_cover (p2 p1 p0 : Vec F S1x1x8x256x256 .f32) (y : S1x3x8x256x256.Idx) :
    ∃ pc ∈ ([⟨outRect2, p2⟩, ⟨outRect1, p1⟩, ⟨outRect0, p0⟩] : List (View.Piece (Elt F) S1x3x8x256x256 .f32)), y ∈ pc.1.set :=
  View.cover_of_tiled [⟨outRect2, p2⟩, ⟨outRect1, p1⟩, ⟨outRect0, p0⟩] S1x1x8x256x256.size (by rfl) y

/-! ## The body's triple -/

set_option maxHeartbeats 4000000 in
/-- The body on whole staging buffers, the inputs' reading `x0`, `x1`, `x2` and the output's anything, runs to the end
    with the inputs' as they were and the output's at `stored x0 x1 x2`. -/
theorem body_runs (c : Dev nD) (E : Set ℕ) (i : grid0.Coords)
    (arg2 : Memref sig .tc .vmem S1x8x256x256 .f32) (harg2 : arg2.IsWhole) (arg3 : Memref sig .tc .vmem S1x1x256x256 .f32) (harg3 : arg3.IsWhole)
    (arg4 : Memref sig .tc .vmem S1x1x256x256 .f32) (harg4 : arg4.IsWhole) (arg5 : Memref sig .tc .vmem S1x3x8x256x256 .f32) (harg5 : arg5.IsWhole)
    (x0 : Vec F S1x8x256x256 .f32) (x1 : Vec F S1x1x256x256 .f32) (x2 : Vec F S1x1x256x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (stored x0 x1 x2)) -∗ K ⟨⟩))
      ⊢ wp frame (wpE (defs₀ (F := F)) Variants.none c none) E (cc0__fd_kernel i arg2 harg2 arg3 harg3 arg4 harg4 arg5 harg5) K := by
  simp only [cc0__fd_kernel_eq_skeleton]; unfold cc0__fd_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _ _ _)

end Cert.KernelIdeal.Stencil

end
-- ==== Proof.KernelIdealFrame.lean ====
/-
  The whole run of the stencil kernel: every grid point in turn, the pipeline fetching and writing back around the body.

  The field is handed to the kernel THREE times — as the slab window, the window of the plane before the slab and the
  window of the plane after it — so the three input windows stage blocks of ONE array. None of them ever writes it, so
  the array's ownership is dealt among them in three shares (a half, and the two halves of the other half), each window
  reading through its own share; the output array is a different buffer, held outright. With that split stated, the run
  goes point by point: at each of the 128 points the three inputs' staging buffers hold their blocks of the field
  as launched, the body leaves the output's buffer at the three stored slabs (`Stencil.stored` of those blocks), and the
  write-back puts that into the output array's block for the point.

  What is concluded: every weakly fair execution terminates without a fault; at the end each window's array holds what the
  points' write-backs leave of its launch contents, taken in order (`Dat.arrAt … N`) — for the field, what it held at launch.
-/
import proofs.«105765_j85263690760521_2_alg».proof.Proof.KernelIdealBody

set_option maxRecDepth 16384

noncomputable section

namespace Cert.KernelIdeal.Stencil

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The core's buffers when the region is entered: as launched (the program is the region alone). -/
abbrev V (c : Dev nD) (b : Ref sig .tc) : Buf (Elt F) ((c : Thread nD τ).loc b) := m ((c : Thread nD τ).loc b)

/-- The program up to its region is the region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block of its array at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- Per core: the arrays as launched; after the body at point `t` each input's buffer still at its block, the output's at
    the three stored slabs of the input blocks; between points nothing but the core's other scoped buffers (there are
    none); the field's ownership dealt in three among its windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => stored (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = stored (iblk m c 0 t) (iblk m c 1 t) (iblk m c 2 t) := by dsimp only [dats]

/-- Each input window is fetched at every point, so its buffer holds its block when the body runs. -/
theorem before_0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before_1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)
theorem before_2 (c : Dev nD) (t : Fin cfg0.N) (d) : (dats m 0 c).before 2 t d = iblk m c 2 t :=
  ((dats m 0 c).before_fetched 2 t (fetch0_2 t) d).trans (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and what
    the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (body_runs c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation, at every point. -/
theorem body_obligation (c : Dev nD) : BodyObligation (dats (F := F) m 0 c) (defs₀ (F := F)) Variants.none () Set.univ := fun t => by
  rw [bigSep_W0, bigSep_W0]
  exact sound_body m c t

/-! ## Dealing the field's ownership among its three windows -/

/-- The shares the windows hold their arrays at. -/
theorem share_0 (c : Dev nD) : (dats m 0 c).share 0 = fullShare.left := rfl
theorem share_1 (c : Dev nD) : (dats m 0 c).share 1 = fullShare.right.left := rfl
theorem share_2 (c : Dev nD) : (dats m 0 c).share 2 = fullShare.right.right := rfl
theorem share_3 (c : Dev nD) : (dats m 0 c).share 3 = fullShare := rfl

/-- The windows' arrays, window by window, each a whole buffer at its share. -/
theorem arrays_eq (c : Dev nD) (G : (w : Fin cfg0.W) → Buf (Elt F) ((cfg0.win w).arr.view.loc (c.tc : Thread nD τ))) :
    (dats m 0 c).arrays G = bigSep Finset.univ fun w : Fin 4 =>
      (((c.tc : Thread nD τ).loc (Pipeline.arrRef spec0 w)) ↦{(dats m 0 c).share w} G w : sProp 𝕄) := by
  unfold Dat.arrays
  exact bigSep_congr fun w _ => by rw [(arr_whole0 w).set_eq_univ]

/-- The buffers behind the four windows are two: the field and the output array. -/
theorem two_buffers (c : Dev nD) (Ψ : Ref sig .tc → sProp 𝕄) :
    bigSep (Finset.univ.image (Pipeline.arrRef spec0)) Ψ = iprop(Ψ main_arg0 ∗ Ψ main_v0) :=
  bigSep_eq_bigSepL_of_eq [main_arg0, main_v0] (by decide) (by decide) Ψ

/-- Between points the proof data keep only the core's other scoped buffers. -/
theorem Φ_eq (c : Dev nD) (t : Fin (cfg0.N + 1)) :
    (dats m 0 c).Φ t = Pipeline.scopedRest (Ix := Unit) (Name := ℕ) (U := UR sig nD τ) (Lvl := ℕ) (Val := Elt F) spec0 c := rfl

/-- The two buffers behind the four windows — the field, whole, and the output array, whole — make the four windows'
    holdings: the field's full share is its left half, and the two halves of its right half. -/
theorem split_arrays (c : Dev nD) :
    (Pipeline.arrBufs spec0 c (V m c) : sProp 𝕄) ⊢ (dats m 0 c).arrays ((dats m 0 c).arrAt · 0) := by
  rw [arrays_eq, bigSep_W0, share_0, share_1, share_2, share_3]
  unfold Pipeline.arrBufs
  rw [two_buffers (F := F) c]
  iintro ⟨Ha, Ho⟩
  ihave Hs := (pointsTo_share (PosShare.mem_left_op_right fullShare)).1 $$ Ha
  icases Hs with ⟨Hl, Hr⟩
  ihave Hs := (pointsTo_share (PosShare.mem_left_op_right fullShare.right)).1 $$ Hr
  icases Hs with ⟨Hrl, Hrr⟩
  isplitl [Hl]; · iexact Hl
  isplitl [Hrl]; · iexact Hrl
  isplitl [Hrr]; · iexact Hrr
  iexact Ho

/-! ## The run -/

/-- What the run ends with: each window's array at its launch contents overwritten by the points' write-backs, in order. -/
def RunPost (r : PUnit × MemSt nD τ sig (Elt F)) : Prop :=
  ∀ c : Dev nD, ∀ w : Fin cfg0.W,
    r.2.mem (((cfg0).spec w).arr.view.loc (c.tc : Thread nD τ)) = (dats m 0 c).arrAt w cfg0.N

set_option backward.isDefEq.respectTransparency.types false in
/-- From any memory with zero counters, every weakly fair execution of the program terminates without a fault, each
    window's array ending at `arrAt … N`. -/
theorem run_main : θ_run defs (onTc (τ := τ) (main (F := F))) (s₀ m ρ) (RunPost m) :=
  Pipeline.θ_run_region_noSem_shared (Ix := Unit) (Name := ℕ) (U := UR sig nD τ) (Lvl := ℕ) cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none)
    (hsplit := split_arrays m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Φ_eq]
      iintro ⟨-, H⟩
      iexact H)
    (hout := fun c => by
      rw [Φ_eq]
      iintro H
      isplitr; · iempintro
      iexact H)
    (QY := fun _ _ => True)
    (hY := fun c s' => by
      iintro ⟨-, -, HSI⟩
      imodintro
      isplitr; · ipureintro; trivial
      iexact HSI)
    (hQ := fun s h c w => (h c).1 w)

/-- info: 'Cert.KernelIdeal.Stencil.run_main' depends on axioms: [propext, Classical.choice, Quot.sound] -/
#guard_msgs in #print axioms run_main

/-! ## The frame -/

/-- The field ends as launched: no input window is ever written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c 0).trans (((dats m 0 c).arrAt_in 0 rfl _).trans (A_eq m c 0)))) (run_main m ρ)

end Cert.KernelIdeal.Stencil

end
-- ==== Proof.Spec.lean ====
/-
  The periodic central difference of a scalar field, as one function of the field.

  The field `x` has a batch axis of extent 4 and three spatial axes of extent 256 each. Its gradient has one more axis,
  of extent 3, right after the batch axis: component `k` at the site `(p, q, r)` of batch `b` is

      (x at the site one step FORWARD along spatial axis k  −  x at the site one step BACK along it) · ½,

  the steps taken around the end of the axis (a site's forward neighbour on an axis is `(coordinate + 1) mod 256`, its
  backward neighbour `(coordinate + 255) mod 256`). Everything is over the extended reals; the factor ½ is kept as the
  binary32 word `0x3F000000`, whose value it is.

  One law is proved here, the only one that joins the two programs' arithmetic: dividing an extended real by the
  binary32 word for 2 is multiplying it by the word for ½. It holds at the infinities and at the junk value too, since
  the quotient by a nonzero real IS the product with its reciprocal on every extended real.
-/
import Idealize.ShloMosaic.PureOps.Ideal
import Idealize.ShloMosaic.Lib.ValueIdx

noncomputable section

namespace Cert.CentralDiff

open Idealize.ShloMosaic Idealize.ShloMosaic.ValueIdx

/-- The field's shape: batch, then the three spatial axes. -/
abbrev Field : Shape := ⟨4, ![4, 256, 256, 256]⟩
/-- The gradient's shape: batch, component, then the three spatial axes. -/
abbrev Grad : Shape := ⟨5, ![4, 3, 256, 256, 256]⟩

/-- The forward neighbour of a coordinate on a periodic axis of extent 256. -/
def up (p : Fin 256) : Fin 256 := ⟨(p.val + 1) % 256, Nat.mod_lt _ (by decide)⟩
/-- The backward neighbour: `p − 1` around the end, written `p + 255` so that no subtraction of naturals occurs. -/
def dn (p : Fin 256) : Fin 256 := ⟨(p.val + 255) % 256, Nat.mod_lt _ (by decide)⟩

theorem up_val (p : Fin 256) : (up p).val = (p.val + 1) % 256 := rfl
theorem dn_val (p : Fin 256) : (dn p).val = (p.val + 255) % 256 := rfl

/-- The factor ½, as the binary32 word both programs' arithmetic meets it in. -/
abbrev half : EReal := Ideal.ofBits .f32 0x3F000000#32

/-- Component `k` of the gradient at batch `b`, site `(p, q, r)`. -/
def gradAt (x : Field.Idx → EReal) (b : Fin 4) (k : Fin 3) (p q r : Fin 256) : EReal :=
  match k with
  | ⟨0, _⟩ => (x (ix4 b (up p) q r) - x (ix4 b (dn p) q r)) * half
  | ⟨1, _⟩ => (x (ix4 b p (up q) r) - x (ix4 b p (dn q) r)) * half
  | ⟨2, _⟩ => (x (ix4 b p q (up r)) - x (ix4 b p q (dn r))) * half

/-- The whole gradient array. -/
def grad (x : Field.Idx → EReal) : Grad.Idx → EReal :=
  fun j => gradAt x (j 0) (j 1) (j 2) (j 3) (j 4)

theorem grad_ix5 (x : Field.Idx → EReal) (b : Fin 4) (k : Fin 3) (p q r : Fin 256) :
    grad x (ix5 b k p q r) = gradAt x b k p q r := rfl

theorem gradAt_zero (x : Field.Idx → EReal) (b : Fin 4) (p q r : Fin 256) :
    gradAt x b 0 p q r = (x (ix4 b (up p) q r) - x (ix4 b (dn p) q r)) * half := rfl
theorem gradAt_one (x : Field.Idx → EReal) (b : Fin 4) (p q r : Fin 256) :
    gradAt x b 1 p q r = (x (ix4 b p (up q) r) - x (ix4 b p (dn q) r)) * half := rfl
theorem gradAt_two (x : Field.Idx → EReal) (b : Fin 4) (p q r : Fin 256) :
    gradAt x b 2 p q r = (x (ix4 b p q (up r)) - x (ix4 b p q (dn r))) * half := rfl

/-! ## The one law: a quotient by two is a product with a half -/

/-- The binary32 word `0x40000000` denotes the real 2. -/
theorem word_two : Ideal.ofBits .f32 0x40000000#32 = ((2 : ℝ) : EReal) := by
  simp [Ideal.ofBits, Ideal.ieee, -EReal.coe_mul]; norm_num

/-- The binary32 word `0x3F000000` denotes the real ½. -/
theorem word_half : Ideal.ofBits .f32 0x3F000000#32 = ((1 / 2 : ℝ) : EReal) := by
  simp [Ideal.ofBits, Ideal.ieee, -EReal.coe_mul]; norm_num

/-- On every extended real, the quotient by the word for 2 is the product with the word for ½. -/
theorem div_two_eq_mul_half (y : EReal) :
    Ideal.div y (Ideal.ofBits .f32 0x40000000#32) = y * half := by
  rw [half, word_two, word_half, Ideal.div_coe (by norm_num : (2 : ℝ) ≠ 0)]

end Cert.CentralDiff

end
-- ==== Proof.KernelIdealPayloads.lean ====
/-
  The kernel body's arithmetic, read at one element.

  One step of the kernel holds a slab of eight consecutive planes of the field, the plane just before the slab and the
  plane just after it, and writes the three components of the central difference on the slab's sites.

  Along the two axes inside a plane the slab is rotated: a rotation by 255 of an axis of extent 256 puts at coordinate c
  the entry at (c + 256 − 255) mod 256 = (c + 1) mod 256, the forward neighbour, and a rotation by 1 puts there the entry
  at (c + 256 − 1) mod 256 = (c + 255) mod 256, the backward neighbour. The component is their difference times ½.

  Along the slab axis the neighbours are planes. The forward copy is the planes 1 … 7 of the slab followed by the plane
  after the slab: at plane s < 7 it is plane s + 1 of the slab, at plane 7 the plane after. The backward copy is the plane
  before the slab followed by the planes 0 … 6: at plane 0 it is the plane before, at plane s > 0 plane s − 1 of the slab.
  The component is again the difference times ½.

  Every reshaping in between only adds or removes axes of extent one, so it keeps the row-major position of an element:
  site (s, q, r) of an [8, 256, 256] array is site (0, s, q, r) of the [1, 8, 256, 256] one and (0, 0, s, q, r) of the
  [1, 1, 8, 256, 256] one, all at position (s · 256 + q) · 256 + r.
-/
import proofs.«105765_j85263690760521_2_alg».proof.Proof.Gen.KernelIdeal.Skeleton
import proofs.«105765_j85263690760521_2_alg».proof.Proof.Spec
import Idealize.ShloMosaic.Lib.ValueIdx
import Idealize.ShloMosaic.Lib.Pipeline.Value
import Idealize.ShloMosaic.Lib.KernelVsHost

noncomputable section

namespace Cert.KernelIdeal.Payloads

open Cert.KernelIdeal Cert.KernelIdeal.Gen Idealize.ShloMosaic Idealize.ShloMosaic.ValueIdx Cert.CentralDiff

/-! ## Reshapings that add or drop unit axes -/

/-- The slab without its unit axis: site (s, q, r) is site (0, s, q, r) of the slab. -/
theorem slab_apply (X : Vec Ideal S1x8x256x256 .f32) (s : Fin 8) (q r : Fin 256) :
    k0_pay2 (F := Ideal) X (ix3 s q r) = X (ix4 (0 : Fin 1) s q r) := by
  unfold k0_pay2
  refine shapeCast_apply X shapeCasts_S1x8x256x256_S8x256x256 (ix3 s q r) (ix4 (0 : Fin 1) s q r) ?_
  rw [Shape.rowMajor_val_four, Shape.rowMajor_val_three]
  show ((0 * 8 + s.val) * 256 + q.val) * 256 + r.val = (s.val * 256 + q.val) * 256 + r.val
  omega

/-- A component with two unit axes in front: site (0, 0, s, q, r) is site (s, q, r) of the component. -/
theorem out_apply (v : FVec Ideal S8x256x256 .f32) (s : Fin 8) (q r : Fin 256) :
    shapeCast S1x1x8x256x256 v shapeCasts_S8x256x256_S1x1x8x256x256 (ix5 (0 : Fin 1) (0 : Fin 1) s q r)
      = v (ix3 s q r) := by
  refine shapeCast_apply v shapeCasts_S8x256x256_S1x1x8x256x256 (ix5 (0 : Fin 1) (0 : Fin 1) s q r) (ix3 s q r) ?_
  rw [Shape.rowMajor_val_five, Shape.rowMajor_val_three]
  show (s.val * 256 + q.val) * 256 + r.val = (((0 * 1 + 0) * 8 + s.val) * 256 + q.val) * 256 + r.val
  omega

/-- A neighbouring plane, its two unit axes dropped and one put back: site (0, q, r) is site (0, 0, q, r) of the plane. -/
theorem plane_apply (P : Vec Ideal S1x1x256x256 .f32) (q r : Fin 256) :
    shapeCast S1x256x256 (shapeCast S256x256 P shapeCasts_S1x1x256x256_S256x256) shapeCasts_S256x256_S1x256x256
        (ix3 (0 : Fin 1) q r)
      = P (ix4 (0 : Fin 1) (0 : Fin 1) q r) := by
  refine (shapeCast_apply _ shapeCasts_S256x256_S1x256x256 (ix3 (0 : Fin 1) q r) (ix2 q r) ?_).trans ?_
  · rw [Shape.rowMajor_val_two, Shape.rowMajor_val_three]
    show q.val * 256 + r.val = (0 * 256 + q.val) * 256 + r.val
    omega
  refine shapeCast_apply P shapeCasts_S1x1x256x256_S256x256 (ix2 q r) (ix4 (0 : Fin 1) (0 : Fin 1) q r) ?_
  rw [Shape.rowMajor_val_four, Shape.rowMajor_val_two]
  show ((0 * 1 + 0) * 256 + q.val) * 256 + r.val = q.val * 256 + r.val
  omega

/-! ## The four rotations, each read at a site -/

/-- Rotating axis 1 by 255 puts at coordinate q the entry at the forward neighbour of q. -/
theorem rot_y_fwd (v : FVec Ideal S8x256x256 .f32) (s : Fin 8) (q r : Fin 256) :
    dynamicRotate 1 255#32 none v rotates_S8x256x256_d1 (ix3 s q r) = v (ix3 s (up q) r) :=
  dynamicRotate_apply (s := S8x256x256) 1 255#32 v rotates_S8x256x256_d1 (ix3 s q r) (ix3 s (up q) r) (fun b =>
    match b with
      | ⟨0, _⟩ => (if_neg (Fin.ne_of_val_ne (show (0 : Nat) ≠ 1 by decide))).symm
      | ⟨1, _⟩ => by
        refine Eq.trans ?_ (if_pos rfl).symm
        show (q.val + 1) % 256 = (q.val + 256 - 255 % 256) % 256
        omega
      | ⟨2, _⟩ => (if_neg (Fin.ne_of_val_ne (show (2 : Nat) ≠ 1 by decide))).symm)

/-- Rotating axis 1 by 1 puts at coordinate q the entry at the backward neighbour of q. -/
theorem rot_y_bwd (v : FVec Ideal S8x256x256 .f32) (s : Fin 8) (q r : Fin 256) :
    dynamicRotate 1 1#32 none v rotates_S8x256x256_d1 (ix3 s q r) = v (ix3 s (dn q) r) :=
  dynamicRotate_apply (s := S8x256x256) 1 1#32 v rotates_S8x256x256_d1 (ix3 s q r) (ix3 s (dn q) r) (fun b =>
    match b with
      | ⟨0, _⟩ => (if_neg (Fin.ne_of_val_ne (show (0 : Nat) ≠ 1 by decide))).symm
      | ⟨1, _⟩ => by
        refine Eq.trans ?_ (if_pos rfl).symm
        show (q.val + 255) % 256 = (q.val + 256 - 1 % 256) % 256
        omega
      | ⟨2, _⟩ => (if_neg (Fin.ne_of_val_ne (show (2 : Nat) ≠ 1 by decide))).symm)

/-- Rotating axis 2 by 255 puts at coordinate r the entry at the forward neighbour of r. -/
theorem rot_z_fwd (v : FVec Ideal S8x256x256 .f32) (s : Fin 8) (q r : Fin 256) :
    dynamicRotate 2 255#32 none v rotates_S8x256x256_d2 (ix3 s q r) = v (ix3 s q (up r)) :=
  dynamicRotate_apply (s := S8x256x256) 2 255#32 v rotates_S8x256x256_d2 (ix3 s q r) (ix3 s q (up r)) (fun b =>
    match b with
      | ⟨0, _⟩ => (if_neg (Fin.ne_of_val_ne (show (0 : Nat) ≠ 2 by decide))).symm
      | ⟨1, _⟩ => (if_neg (Fin.ne_of_val_ne (show (1 : Nat) ≠ 2 by decide))).symm
      | ⟨2, _⟩ => by
        refine Eq.trans ?_ (if_pos rfl).symm
        show (r.val + 1) % 256 = (r.val + 256 - 255 % 256) % 256
        omega)

/-- Rotating axis 2 by 1 puts at coordinate r the entry at the backward neighbour of r. -/
theorem rot_z_bwd (v : FVec Ideal S8x256x256 .f32) (s : Fin 8) (q r : Fin 256) :
    dynamicRotate 2 1#32 none v rotates_S8x256x256_d2 (ix3 s q r) = v (ix3 s q (dn r)) :=
  dynamicRotate_apply (s := S8x256x256) 2 1#32 v rotates_S8x256x256_d2 (ix3 s q r) (ix3 s q (dn r)) (fun b =>
    match b with
      | ⟨0, _⟩ => (if_neg (Fin.ne_of_val_ne (show (0 : Nat) ≠ 2 by decide))).symm
      | ⟨1, _⟩ => (if_neg (Fin.ne_of_val_ne (show (1 : Nat) ≠ 2 by decide))).symm
      | ⟨2, _⟩ => by
        refine Eq.trans ?_ (if_pos rfl).symm
        show (r.val + 255) % 256 = (r.val + 256 - 1 % 256) % 256
        omega)

/-! ## The two components inside a plane -/

/-- Axis 2 of the field (axis 1 of the slab): forward neighbour minus backward neighbour, times ½. -/
theorem pay_y (X : Vec Ideal S1x8x256x256 .f32) (s : Fin 8) (q r : Fin 256) :
    k0_pay4 (F := Ideal) X (ix5 (0 : Fin 1) (0 : Fin 1) s q r)
      = (X (ix4 (0 : Fin 1) s (up q) r) - X (ix4 (0 : Fin 1) s (dn q) r)) * half := by
  unfold k0_pay4
  refine (out_apply _ s q r).trans ?_
  show (dynamicRotate 1 255#32 none (k0_pay2 X) rotates_S8x256x256_d1 (ix3 s q r)
      - dynamicRotate 1 1#32 none (k0_pay2 X) rotates_S8x256x256_d1 (ix3 s q r)) * half = _
  rw [rot_y_fwd, rot_y_bwd, slab_apply, slab_apply]

/-- Axis 3 of the field (axis 2 of the slab): forward neighbour minus backward neighbour, times ½. -/
theorem pay_z (X : Vec Ideal S1x8x256x256 .f32) (s : Fin 8) (q r : Fin 256) :
    k0_pay1 (F := Ideal) (k0_pay5 X) (k0_pay6 X) (ix5 (0 : Fin 1) (0 : Fin 1) s q r)
      = (X (ix4 (0 : Fin 1) s q (up r)) - X (ix4 (0 : Fin 1) s q (dn r))) * half := by
  unfold k0_pay1 k0_pay5 k0_pay6
  refine (out_apply _ s q r).trans ?_
  show (dynamicRotate 2 255#32 none (k0_pay2 X) rotates_S8x256x256_d2 (ix3 s q r)
      - dynamicRotate 2 1#32 none (k0_pay2 X) rotates_S8x256x256_d2 (ix3 s q r)) * half = _
  rw [rot_z_fwd, rot_z_bwd, slab_apply, slab_apply]

/-! ## The component along the slab axis -/

/-- The forward copy along the slab axis: plane s + 1 of the slab below the last plane, the plane after the slab at it. -/
theorem slab_fwd (X : Vec Ideal S1x8x256x256 .f32) (R : Vec Ideal S1x1x256x256 .f32) (s : Fin 8) (q r : Fin 256) :
    concatenate S8x256x256 0
        [⟨S7x256x256, extractStridedSlice S7x256x256 ![1, 0, 0] (k0_pay2 (F := Ideal) X) slices_S8x256x256_o1_0_0_S7x256x256⟩,
         ⟨S1x256x256, shapeCast S1x256x256 (shapeCast S256x256 R shapeCasts_S1x1x256x256_S256x256)
            shapeCasts_S256x256_S1x256x256⟩]
        concatenates_S7x256x256_S1x256x256_S8x256x256_d0 (ix3 s q r)
      = if h : s.val < 7 then X (ix4 (0 : Fin 1) (⟨s.val + 1, by omega⟩ : Fin 8) q r)
        else R (ix4 (0 : Fin 1) (0 : Fin 1) q r) := by
  by_cases h : s.val < 7
  · -- below the last plane: the slice from plane 1, at plane s, is plane 1 + s of the slab
    rw [dif_pos h]
    refine (concatenate_pair_apply_left (t := S8x256x256) (s₁ := S7x256x256) (s₂ := S1x256x256) 0 _ _ _
      (ix3 s q r) rfl (ix3 (⟨s.val, h⟩ : Fin 7) q r) (fun a => by
        match a with
        | ⟨0, _⟩ => rfl
        | ⟨1, _⟩ => rfl
        | ⟨2, _⟩ => rfl)).trans ?_
    refine (extractStridedSlice_apply ![1, 0, 0] _ slices_S8x256x256_o1_0_0_S7x256x256 (ix3 (⟨s.val, h⟩ : Fin 7) q r)
      (ix3 (⟨s.val + 1, by omega⟩ : Fin 8) q r) (fun a => by
        match a with
        | ⟨0, _⟩ => show s.val + 1 = 1 + s.val; omega
        | ⟨1, _⟩ => show q.val = 0 + q.val; omega
        | ⟨2, _⟩ => show r.val = 0 + r.val; omega)).trans ?_
    exact slab_apply X _ q r
  · -- the last plane: the one-plane piece at its only plane is the plane after the slab
    rw [dif_neg h]
    have h' : s.val = 7 := by have := s.isLt; omega
    refine (concatenate_pair_apply_right (t := S8x256x256) (s₁ := S7x256x256) (s₂ := S1x256x256) 0 _ _ _
      (ix3 s q r) rfl rfl (ix3 (0 : Fin 1) q r) (fun a ha => by
        match a with
        | ⟨0, _⟩ => exact absurd rfl ha
        | ⟨1, _⟩ => rfl
        | ⟨2, _⟩ => rfl) (by show 0 + 7 = s.val; omega)).trans ?_
    exact plane_apply R q r

/-- The backward copy along the slab axis: the plane before the slab at plane 0, plane s − 1 of the slab past it. -/
theorem slab_bwd (X : Vec Ideal S1x8x256x256 .f32) (L : Vec Ideal S1x1x256x256 .f32) (s : Fin 8) (q r : Fin 256) :
    concatenate S8x256x256 0
        [⟨S1x256x256, shapeCast S1x256x256 (shapeCast S256x256 L shapeCasts_S1x1x256x256_S256x256)
            shapeCasts_S256x256_S1x256x256⟩,
         ⟨S7x256x256, extractStridedSlice S7x256x256 ![0, 0, 0] (k0_pay2 (F := Ideal) X) slices_S8x256x256_o0_0_0_S7x256x256⟩]
        concatenates_S1x256x256_S7x256x256_S8x256x256_d0 (ix3 s q r)
      = if h : s.val = 0 then L (ix4 (0 : Fin 1) (0 : Fin 1) q r)
        else X (ix4 (0 : Fin 1) (⟨s.val - 1, by omega⟩ : Fin 8) q r) := by
  by_cases h : s.val = 0
  · -- the first plane: the one-plane piece at its only plane is the plane before the slab
    rw [dif_pos h]
    refine (concatenate_pair_apply_left (t := S8x256x256) (s₁ := S1x256x256) (s₂ := S7x256x256) 0 _ _ _
      (ix3 s q r) rfl (ix3 (0 : Fin 1) q r) (fun a => by
        match a with
        | ⟨0, _⟩ => exact h.symm
        | ⟨1, _⟩ => rfl
        | ⟨2, _⟩ => rfl)).trans ?_
    exact plane_apply L q r
  · -- past the first plane: the slice of the planes 0 … 6, at plane s − 1, is plane s − 1 of the slab
    rw [dif_neg h]
    have h' : s.val - 1 < 7 := by have := s.isLt; omega
    refine (concatenate_pair_apply_right (t := S8x256x256) (s₁ := S1x256x256) (s₂ := S7x256x256) 0 _ _ _
      (ix3 s q r) rfl rfl (ix3 (⟨s.val - 1, h'⟩ : Fin 7) q r) (fun a ha => by
        match a with
        | ⟨0, _⟩ => exact absurd rfl ha
        | ⟨1, _⟩ => rfl
        | ⟨2, _⟩ => rfl) (by show (s.val - 1) + 1 = s.val; omega)).trans ?_
    refine (extractStridedSlice_apply ![0, 0, 0] _ slices_S8x256x256_o0_0_0_S7x256x256 (ix3 (⟨s.val - 1, h'⟩ : Fin 7) q r)
      (ix3 (⟨s.val - 1, by omega⟩ : Fin 8) q r) (fun a => by
        match a with
        | ⟨0, _⟩ => show s.val - 1 = 0 + (s.val - 1); omega
        | ⟨1, _⟩ => show q.val = 0 + q.val; omega
        | ⟨2, _⟩ => show r.val = 0 + r.val; omega)).trans ?_
    exact slab_apply X _ q r

/-- Axis 1 of the field (axis 0 of the slab): the neighbouring planes' difference times ½, the plane before the slab
    and the plane after it standing in at the slab's two ends. -/
theorem pay_x (X : Vec Ideal S1x8x256x256 .f32) (L R : Vec Ideal S1x1x256x256 .f32) (s : Fin 8) (q r : Fin 256) :
    k0_pay3 (F := Ideal) X L R (ix5 (0 : Fin 1) (0 : Fin 1) s q r)
      = ((if h : s.val < 7 then X (ix4 (0 : Fin 1) (⟨s.val + 1, by omega⟩ : Fin 8) q r)
            else R (ix4 (0 : Fin 1) (0 : Fin 1) q r))
         - (if h : s.val = 0 then L (ix4 (0 : Fin 1) (0 : Fin 1) q r)
            else X (ix4 (0 : Fin 1) (⟨s.val - 1, by omega⟩ : Fin 8) q r))) * half := by
  unfold k0_pay3
  refine (out_apply _ s q r).trans ?_
  exact congrArg (· * half) (congrArg₂ (· - ·) (slab_fwd X R s q r) (slab_bwd X L s q r))

end Cert.KernelIdeal.Payloads

end
-- ==== Proof.KernelIdealValue.lean ====
/-
  What the stencil kernel's output array holds after the run: the periodic central difference of the field.

  Point `t` of the grid is a batch `b` and a slab number `ξ` (32 slabs of 8 planes along the first spatial axis). Its three
  input blocks are the field's planes `8ξ … 8ξ+7` of batch `b`, the plane `(8ξ + 255) mod 256` just before them and the plane
  `(8ξ + 8) mod 256` just after, and it writes back the three gradient slabs for those eight planes. Reading the three
  stored slabs at an index:

  * along the two in-plane axes the body rotates the slab by one position either way, so an entry's two neighbours are
    found inside the slab, around the end of the axis: the specification's neighbours outright;
  * along the slab axis the forward neighbour of plane `s &lt; 7` of the slab is plane `s + 1` of the slab and that of plane 7
    is the plane after the slab; the backward neighbour of plane `s &gt; 0` is plane `s − 1` and that of plane 0 is the plane
    before the slab. Since `8ξ + s + 1 &lt; 256` unless `s = 7`, and `8ξ + s ≥ 1` unless `s = 0`, these are the planes
    `(8ξ + s + 1) mod 256` and `(8ξ + s + 255) mod 256` of the field: the specification's neighbours again.

  So what each point writes back is its block of ONE array, the specification's gradient of the field; the 128 blocks tile
  the output array (the point for an index is its batch and its first spatial coordinate divided by 8); hence the array
  ends as that gradient.
-/
import proofs.«105765_j85263690760521_2_alg».proof.Proof.KernelIdealFrame
import proofs.«105765_j85263690760521_2_alg».proof.Proof.KernelIdealPayloads
import proofs.«105765_j85263690760521_2_alg».proof.Proof.Spec
import Idealize.ShloMosaic.Lib.Pipeline.Value
import Idealize.ShloMosaic.Lib.ValueIdx

set_option maxRecDepth 16384

noncomputable section

namespace Cert.KernelIdeal.Stencil

open Cert.KernelIdeal Cert.KernelIdeal.Gen Cert.KernelIdeal.Payloads Cert.CentralDiff
open Idealize.ShloMosaic Idealize.ShloMosaic.TcCoe Idealize.ShloMosaic.ValueIdx
open Idealize.SL Idealize.SL.Sem
open Idealize.ShloMosaic.Pipeline (Dat Cfg Window)

/-! ## The three stored slabs at an index -/

theorem zeros4 : (![0, 0, 0, 0] : Fin 4 → Nat) = fun _ => 0 := funext fun a => by fin_cases a <;> rfl

/-- Three slabs laid side by side along the component axis, read at an index: the entry in component slab `k` is slab
    `k`'s entry at the same position. (An index of one component's slab lies in no other's: their ranges on the
    component axis differ.) -/
theorem three_slabs (p2 p1 p0 : Vec Ideal S1x1x8x256x256 .f32) (s : Fin 8) (q r : Fin 256) :
    View.canon ([⟨outRect2, p2⟩, ⟨outRect1, p1⟩, ⟨outRect0, p0⟩] : List (View.Piece (Elt Ideal) S1x3x8x256x256 .f32))
        (ix5 (0 : Fin 1) (0 : Fin 3) s q r) = p0 (ix5 (0 : Fin 1) (0 : Fin 1) s q r)
    ∧ View.canon ([⟨outRect2, p2⟩, ⟨outRect1, p1⟩, ⟨outRect0, p0⟩] : List (View.Piece (Elt Ideal) S1x3x8x256x256 .f32))
        (ix5 (0 : Fin 1) (1 : Fin 3) s q r) = p1 (ix5 (0 : Fin 1) (0 : Fin 1) s q r)
    ∧ View.canon ([⟨outRect2, p2⟩, ⟨outRect1, p1⟩, ⟨outRect0, p0⟩] : List (View.Piece (Elt Ideal) S1x3x8x256x256 .f32))
        (ix5 (0 : Fin 1) (2 : Fin 3) s q r) = p2 (ix5 (0 : Fin 1) (0 : Fin 1) s q r) := by
  have e0 : (ix5 (0 : Fin 1) (0 : Fin 3) s q r : S1x3x8x256x256.Idx) = outRect0.emb (ix5 (0 : Fin 1) (0 : Fin 1) s q r) :=
    funext fun a => Fin.ext (by
      rw [Rect.emb_apply]
      match a with
      | ⟨0, _⟩ => rfl
      | ⟨1, _⟩ => rfl
      | ⟨2, _⟩ => show s.val = 0 + 1 * s.val; omega
      | ⟨3, _⟩ => show q.val = 0 + 1 * q.val; omega
      | ⟨4, _⟩ => show r.val = 0 + 1 * r.val; omega)
  have e1 : (ix5 (0 : Fin 1) (1 : Fin 3) s q r : S1x3x8x256x256.Idx) = outRect1.emb (ix5 (0 : Fin 1) (0 : Fin 1) s q r) :=
    funext fun a => Fin.ext (by
      rw [Rect.emb_apply]
      match a with
      | ⟨0, _⟩ => rfl
      | ⟨1, _⟩ => rfl
      | ⟨2, _⟩ => show s.val = 0 + 1 * s.val; omega
      | ⟨3, _⟩ => show q.val = 0 + 1 * q.val; omega
      | ⟨4, _⟩ => show r.val = 0 + 1 * r.val; omega)
  have e2 : (ix5 (0 : Fin 1) (2 : Fin 3) s q r : S1x3x8x256x256.Idx) = outRect2.emb (ix5 (0 : Fin 1) (0 : Fin 1) s q r) :=
    funext fun a => Fin.ext (by
      rw [Rect.emb_apply]
      match a with
      | ⟨0, _⟩ => rfl
      | ⟨1, _⟩ => rfl
      | ⟨2, _⟩ => show s.val = 0 + 1 * s.val; omega
      | ⟨3, _⟩ => show q.val = 0 + 1 * q.val; omega
      | ⟨4, _⟩ => show r.val = 0 + 1 * r.val; omega)
  have n02 : (ix5 (0 : Fin 1) (0 : Fin 3) s q r : S1x3x8x256x256.Idx) ∉ outRect2.set := fun h => by
    have := (Rect.mem_set_unit.mp h) (1 : Fin 5); revert this; show ¬ ((2 : Nat) ≤ 0 ∧ (0 : Nat) < 2 + 1); omega
  have n01 : (ix5 (0 : Fin 1) (0 : Fin 3) s q r : S1x3x8x256x256.Idx) ∉ outRect1.set := fun h => by
    have := (Rect.mem_set_unit.mp h) (1 : Fin 5); revert this; show ¬ ((1 : Nat) ≤ 0 ∧ (0 : Nat) < 1 + 1); omega
  have n12 : (ix5 (0 : Fin 1) (1 : Fin 3) s q r : S1x3x8x256x256.Idx) ∉ outRect2.set := fun h => by
    have := (Rect.mem_set_unit.mp h) (1 : Fin 5); revert this; show ¬ ((2 : Nat) ≤ 1 ∧ (1 : Nat) < 2 + 1); omega
  refine ⟨?_, ?_, ?_⟩
  · refine (View.canon_cons_of_not_mem (⟨outRect2, p2⟩ : View.Piece (Elt Ideal) S1x3x8x256x256 .f32) _ n02).trans ?_
    refine (View.canon_cons_of_not_mem (⟨outRect1, p1⟩ : View.Piece (Elt Ideal) S1x3x8x256x256 .f32) _ n01).trans ?_
    exact (congrArg (View.canon ([⟨outRect0, p0⟩] : List (View.Piece (Elt Ideal) S1x3x8x256x256 .f32))) e0).trans
      (View.canon_cons_emb outRect0 p0 [] _)
  · refine (View.canon_cons_of_not_mem (⟨outRect2, p2⟩ : View.Piece (Elt Ideal) S1x3x8x256x256 .f32) _ n12).trans ?_
    exact (congrArg (View.canon ([⟨outRect1, p1⟩, ⟨outRect0, p0⟩] : List (View.Piece (Elt Ideal) S1x3x8x256x256 .f32))) e1).trans
      (View.canon_cons_emb outRect1 p1 _ _)
  · exact (congrArg (View.canon ([⟨outRect2, p2⟩, ⟨outRect1, p1⟩, ⟨outRect0, p0⟩] : List (View.Piece (Elt Ideal) S1x3x8x256x256 .f32))) e2).trans
      (View.canon_cons_emb outRect2 p2 _ _)

/-- The output buffer's entry in component slab `k` is that slab's store, at the same position. -/
theorem stored_at (x0 : Vec Ideal S1x8x256x256 .f32) (x1 x2 : Vec Ideal S1x1x256x256 .f32) (s : Fin 8) (q r : Fin 256) :
    stored x0 x1 x2 (ix5 (0 : Fin 1) (0 : Fin 3) s q r) = k0_pay3 x0 x1 x2 (ix5 (0 : Fin 1) (0 : Fin 1) s q r)
    ∧ stored x0 x1 x2 (ix5 (0 : Fin 1) (1 : Fin 3) s q r) = k0_pay4 x0 (ix5 (0 : Fin 1) (0 : Fin 1) s q r)
    ∧ stored x0 x1 x2 (ix5 (0 : Fin 1) (2 : Fin 3) s q r) = k0_pay1 (k0_pay5 x0) (k0_pay6 x0) (ix5 (0 : Fin 1) (0 : Fin 1) s q r) := by
  unfold stored
  simp only [View.ld_unit_zero (S := S1x8x256x256) zeros4, View.ld_unit_zero (S := S1x1x256x256) zeros4]
  exact three_slabs _ _ _ s q r

/-! ## One point's stored slabs are a block of the gradient -/

/-- If the slab buffer holds planes `8ξ … 8ξ+7` of batch `b` of a field `x`, and the two plane buffers the planes just before
    and just after them (around the end of the axis), the output buffer holds the gradient of `x` on those eight planes. -/
theorem stored_is_grad (x : Field.Idx → EReal) (x0 : Vec Ideal S1x8x256x256 .f32) (x1 x2 : Vec Ideal S1x1x256x256 .f32)
    (b : Fin 4) (ξ : Fin 32)
    (h0 : ∀ (s : Fin 8) (q r : Fin 256), x0 (ix4 (0 : Fin 1) s q r) = x (ix4 b (⟨8 * ξ.val + s.val, by omega⟩ : Fin 256) q r))
    (h1 : ∀ q r : Fin 256, x1 (ix4 (0 : Fin 1) (0 : Fin 1) q r) = x (ix4 b (⟨(8 * ξ.val + 255) % 256, Nat.mod_lt _ (by decide)⟩ : Fin 256) q r))
    (h2 : ∀ q r : Fin 256, x2 (ix4 (0 : Fin 1) (0 : Fin 1) q r) = x (ix4 b (⟨(8 * ξ.val + 8) % 256, Nat.mod_lt _ (by decide)⟩ : Fin 256) q r))
    (z : Fin 1) (k : Fin 3) (s : Fin 8) (q r : Fin 256) :
    stored x0 x1 x2 (ix5 z k s q r) = gradAt x b k (⟨8 * ξ.val + s.val, by omega⟩ : Fin 256) q r := by
  obtain rfl : z = 0 := Subsingleton.elim _ _
  obtain ⟨a0, a1, a2⟩ := stored_at x0 x1 x2 s q r
  have hs : s.val < 8 := s.isLt
  have hξ : ξ.val < 32 := ξ.isLt
  -- the forward neighbour along the slab axis: inside the slab below its last plane, the plane after the slab at it
  have hfwd : (if h : s.val < 7 then x0 (ix4 (0 : Fin 1) (⟨s.val + 1, by omega⟩ : Fin 8) q r) else x2 (ix4 (0 : Fin 1) (0 : Fin 1) q r))
      = x (ix4 b (up (⟨8 * ξ.val + s.val, by omega⟩ : Fin 256)) q r) := by
    by_cases h : s.val < 7
    · rw [dif_pos h, h0]
      exact congrArg x (funext fun a => Fin.ext (by
        match a with
        | ⟨0, _⟩ => rfl
        | ⟨1, _⟩ => show 8 * ξ.val + (s.val + 1) = (8 * ξ.val + s.val + 1) % 256; omega
        | ⟨2, _⟩ => rfl
        | ⟨3, _⟩ => rfl))
    · rw [dif_neg h, h2]
      exact congrArg x (funext fun a => Fin.ext (by
        match a with
        | ⟨0, _⟩ => rfl
        | ⟨1, _⟩ => show (8 * ξ.val + 8) % 256 = (8 * ξ.val + s.val + 1) % 256; omega
        | ⟨2, _⟩ => rfl
        | ⟨3, _⟩ => rfl))
  -- the backward neighbour: the plane before the slab at its first plane, inside the slab above it
  have hbwd : (if h : s.val = 0 then x1 (ix4 (0 : Fin 1) (0 : Fin 1) q r) else x0 (ix4 (0 : Fin 1) (⟨s.val - 1, by omega⟩ : Fin 8) q r))
      = x (ix4 b (dn (⟨8 * ξ.val + s.val, by omega⟩ : Fin 256)) q r) := by
    by_cases h : s.val = 0
    · rw [dif_pos h, h1]
      exact congrArg x (funext fun a => Fin.ext (by
        match a with
        | ⟨0, _⟩ => rfl
        | ⟨1, _⟩ => show (8 * ξ.val + 255) % 256 = (8 * ξ.val + s.val + 255) % 256; omega
        | ⟨2, _⟩ => rfl
        | ⟨3, _⟩ => rfl))
    · rw [dif_neg h, h0]
      exact congrArg x (funext fun a => Fin.ext (by
        match a with
        | ⟨0, _⟩ => rfl
        | ⟨1, _⟩ => show 8 * ξ.val + (s.val - 1) = (8 * ξ.val + s.val + 255) % 256; omega
        | ⟨2, _⟩ => rfl
        | ⟨3, _⟩ => rfl))
  have hk : k = 0 ∨ k = 1 ∨ k = 2 := by
    have := k.isLt
    rcases Nat.lt_or_ge k.val 1 with h | h
    · exact .inl (Fin.ext (by show k.val = 0; omega))
    · rcases Nat.lt_or_ge k.val 2 with h' | h'
      · exact .inr (.inl (Fin.ext (by show k.val = 1; omega)))
      · exact .inr (.inr (Fin.ext (by show k.val = 2; omega)))
  rcases hk with rfl | rfl | rfl
  · refine a0.trans ((pay_x x0 x1 x2 s q r).trans ?_)
    rw [gradAt_zero]
    exact congrArg₂ (fun u v : EReal => (u - v) * half) hfwd hbwd
  · refine a1.trans ((pay_y x0 s q r).trans ?_)
    rw [gradAt_one]
    exact congrArg₂ (fun u v : EReal => (u - v) * half) (h0 s (up q) r) (h0 s (dn q) r)
  · refine a2.trans ((pay_z x0 s q r).trans ?_)
    rw [gradAt_two]
    exact congrArg₂ (fun u v : EReal => (u - v) * half) (h0 s q (up r)) (h0 s q (dn r))

/-! ## The grid: which blocks a point's windows are -/

/-- The printed index maps, decided over the 128 points: the slab window follows the output window's batch and slab number,
    the two plane windows sit at the planes `(8ξ + 255) mod 256` and `(8ξ + 8) mod 256`, every other block index is zero,
    and the batch and slab number stay in their ranges. -/
theorem idx_facts : ∀ t : Fin cfg0.N,
    win0_0.index t (0 : Fin 4) = win0_3.index t (0 : Fin 5) ∧ win0_0.index t (1 : Fin 4) = win0_3.index t (2 : Fin 5)
    ∧ win0_0.index t (2 : Fin 4) = 0 ∧ win0_0.index t (3 : Fin 4) = 0
    ∧ win0_1.index t (0 : Fin 4) = win0_3.index t (0 : Fin 5) ∧ win0_1.index t (1 : Fin 4) = (8 * win0_3.index t (2 : Fin 5) + 255) % 256
    ∧ win0_1.index t (2 : Fin 4) = 0 ∧ win0_1.index t (3 : Fin 4) = 0
    ∧ win0_2.index t (0 : Fin 4) = win0_3.index t (0 : Fin 5) ∧ win0_2.index t (1 : Fin 4) = (8 * win0_3.index t (2 : Fin 5) + 8) % 256
    ∧ win0_2.index t (2 : Fin 4) = 0 ∧ win0_2.index t (3 : Fin 4) = 0
    ∧ win0_3.index t (1 : Fin 5) = 0 ∧ win0_3.index t (3 : Fin 5) = 0 ∧ win0_3.index t (4 : Fin 5) = 0
    ∧ win0_3.index t (0 : Fin 5) < 4 ∧ win0_3.index t (2 : Fin 5) < 32 :=
  (by decide +kernel : ∀ t : Fin grid0.N, _)

/-- Every (batch, slab number) is some point's. -/
theorem idx_onto : ∀ (b : Fin 4) (ξ : Fin 32), ∃ t : Fin cfg0.N, win0_3.index t = ![b.val, 0, ξ.val, 0, 0] :=
  (by decide +kernel : ∀ (b : Fin 4) (ξ : Fin 32), ∃ t : Fin grid0.N, win0_3.index t = ![b.val, 0, ξ.val, 0, 0])

variable (m : (ℓ : Loc nD τ sig) → Buf (Elt Ideal) ℓ) (ρ : Dev nD → PrngReg)

/-! ## What a point writes back -/

/-- WHAT POINT `t` WRITES BACK is block `t` of the gradient of the field as launched. -/
theorem flushed_eq (c : Dev nD) (t : Fin cfg0.N) :
    (dats m 0 c).flushed 3 t = ((cfg0.win 3).blk t).view.read (Elt Ideal) (grad (V m c main_arg0)) := by
  show (cfg0.win 3).cut (grid0.coords t) ((dats m 0 c).after 3 t) = _
  rw [after_3]
  obtain ⟨e00, e01, e02, e03, e10, e11, e12, e13, e20, e21, e22, e23, e31, e33, e34, hb, hξ⟩ := idx_facts t
  funext y
  show stored (iblk m c 0 t) (iblk m c 1 t) (iblk m c 2 t) y = grad (V m c main_arg0) (((cfg0.win 3).blk t).view.emb y)
  have hy := eq_ix5 (n0 := 1) (n1 := 3) (n2 := 8) (n3 := 256) (n4 := 256) y
  have h0y : (y 0).val < 1 := (y 0).isLt
  have h2y : (y 2).val < 8 := (y 2).isLt
  refine (congrArg (stored (iblk m c 0 t) (iblk m c 1 t) (iblk m c 2 t)) hy).trans ?_
  refine (stored_is_grad (V m c main_arg0) (iblk m c 0 t) (iblk m c 1 t) (iblk m c 2 t)
    ⟨win0_3.index t (0 : Fin 5), hb⟩ ⟨win0_3.index t (2 : Fin 5), hξ⟩ ?_ ?_ ?_ (y 0) (y 1) (y 2) (y 3) (y 4)).trans ?_
  · intro s q r
    show V m c main_arg0 (((cfg0.win 0).blk t).view.emb (ix4 (0 : Fin 1) s q r)) = _
    exact congrArg (V m c main_arg0) (funext fun a => Fin.ext (by
      have hs : s.val < 8 := s.isLt
      match a with
      | ⟨0, _⟩ => show win0_0.index t (0 : Fin 4) * 1 + 1 * 0 = win0_3.index t (0 : Fin 5); omega
      | ⟨1, _⟩ => show win0_0.index t (1 : Fin 4) * 8 + 1 * s.val = 8 * win0_3.index t (2 : Fin 5) + s.val; omega
      | ⟨2, _⟩ => show win0_0.index t (2 : Fin 4) * 256 + 1 * q.val = q.val; omega
      | ⟨3, _⟩ => show win0_0.index t (3 : Fin 4) * 256 + 1 * r.val = r.val; omega))
  · intro q r
    show V m c main_arg0 (((cfg0.win 1).blk t).view.emb (ix4 (0 : Fin 1) (0 : Fin 1) q r)) = _
    exact congrArg (V m c main_arg0) (funext fun a => Fin.ext (by
      match a with
      | ⟨0, _⟩ => show win0_1.index t (0 : Fin 4) * 1 + 1 * 0 = win0_3.index t (0 : Fin 5); omega
      | ⟨1, _⟩ => show win0_1.index t (1 : Fin 4) * 1 + 1 * 0 = (8 * win0_3.index t (2 : Fin 5) + 255) % 256; omega
      | ⟨2, _⟩ => show win0_1.index t (2 : Fin 4) * 256 + 1 * q.val = q.val; omega
      | ⟨3, _⟩ => show win0_1.index t (3 : Fin 4) * 256 + 1 * r.val = r.val; omega))
  · intro q r
    show V m c main_arg0 (((cfg0.win 2).blk t).view.emb (ix4 (0 : Fin 1) (0 : Fin 1) q r)) = _
    exact congrArg (V m c main_arg0) (funext fun a => Fin.ext (by
      match a with
      | ⟨0, _⟩ => show win0_2.index t (0 : Fin 4) * 1 + 1 * 0 = win0_3.index t (0 : Fin 5); omega
      | ⟨1, _⟩ => show win0_2.index t (1 : Fin 4) * 1 + 1 * 0 = (8 * win0_3.index t (2 : Fin 5) + 8) % 256; omega
      | ⟨2, _⟩ => show win0_2.index t (2 : Fin 4) * 256 + 1 * q.val = q.val; omega
      | ⟨3, _⟩ => show win0_2.index t (3 : Fin 4) * 256 + 1 * r.val = r.val; omega))
  · show grad (V m c main_arg0) (ix5 (⟨win0_3.index t (0 : Fin 5), hb⟩ : Fin 4) (y 1) (⟨8 * win0_3.index t (2 : Fin 5) + (y 2).val, by omega⟩ : Fin 256) (y 3) (y 4)) = _
    exact congrArg (grad (V m c main_arg0)) (funext fun a => Fin.ext (by
      match a with
      | ⟨0, _⟩ => show win0_3.index t (0 : Fin 5) = win0_3.index t (0 : Fin 5) * 1 + 1 * (y 0).val; omega
      | ⟨1, _⟩ => show (y 1).val = win0_3.index t (1 : Fin 5) * 3 + 1 * (y 1).val; omega
      | ⟨2, _⟩ => show 8 * win0_3.index t (2 : Fin 5) + (y 2).val = win0_3.index t (2 : Fin 5) * 8 + 1 * (y 2).val; omega
      | ⟨3, _⟩ => show (y 3).val = win0_3.index t (3 : Fin 5) * 256 + 1 * (y 3).val; omega
      | ⟨4, _⟩ => show (y 4).val = win0_3.index t (4 : Fin 5) * 256 + 1 * (y 4).val; omega))

/-! ## The blocks tile the output array -/

/-- An index of the output array is in point `t`'s block iff each coordinate is in the block's range on its axis. -/
theorem mem_blk (t : Fin cfg0.N) (i : S4x3x256x256x256.Idx) :
    i ∈ ((cfg0.win 3).blk t).view.set ↔ ∀ a : Fin 5, win0_3.index t a * S1x3x8x256x256.size a ≤ (i a).val
      ∧ (i a).val < win0_3.index t a * S1x3x8x256x256.size a + S1x3x8x256x256.size a := by
  show i ∈ ((View.whole main_v0).slice (win0_3.rect t)).set ↔ _
  rw [View.set_slice_whole, Rect.mem_set_unit]
  exact Iff.rfl

/-- Every index of the output array is in the block of the point at its batch and its first spatial coordinate over 8. -/
theorem covered (i : S4x3x256x256x256.Idx) :
    ∃ t : Fin cfg0.N, (cfg0.win 3).flush t = true ∧ i ∈ ((cfg0.win 3).blk t).view.set := by
  have hi0 : (i 0).val < 4 := (i 0).isLt
  have hi1 : (i 1).val < 3 := (i 1).isLt
  have hi2 : (i 2).val < 256 := (i 2).isLt
  have hi3 : (i 3).val < 256 := (i 3).isLt
  have hi4 : (i 4).val < 256 := (i 4).isLt
  obtain ⟨t, ht⟩ := idx_onto ⟨(i 0).val, hi0⟩ ⟨(i 2).val / 8, by omega⟩
  have q0 : win0_3.index t (0 : Fin 5) = (i 0).val := congrFun ht 0
  have q1 : win0_3.index t (1 : Fin 5) = 0 := congrFun ht 1
  have q2 : win0_3.index t (2 : Fin 5) = (i 2).val / 8 := congrFun ht 2
  have q3 : win0_3.index t (3 : Fin 5) = 0 := congrFun ht 3
  have q4 : win0_3.index t (4 : Fin 5) = 0 := congrFun ht 4
  refine ⟨t, flush0_3 t, ?_⟩
  rw [mem_blk]
  intro a
  match a with
  | ⟨0, _⟩ => show win0_3.index t (0 : Fin 5) * 1 ≤ (i 0).val ∧ (i 0).val < win0_3.index t (0 : Fin 5) * 1 + 1; omega
  | ⟨1, _⟩ => show win0_3.index t (1 : Fin 5) * 3 ≤ (i 1).val ∧ (i 1).val < win0_3.index t (1 : Fin 5) * 3 + 3; omega
  | ⟨2, _⟩ => show win0_3.index t (2 : Fin 5) * 8 ≤ (i 2).val ∧ (i 2).val < win0_3.index t (2 : Fin 5) * 8 + 8; omega
  | ⟨3, _⟩ => show win0_3.index t (3 : Fin 5) * 256 ≤ (i 3).val ∧ (i 3).val < win0_3.index t (3 : Fin 5) * 256 + 256; omega
  | ⟨4, _⟩ => show win0_3.index t (4 : Fin 5) * 256 ≤ (i 4).val ∧ (i 4).val < win0_3.index t (4 : Fin 5) * 256 + 256; omega

/-! ## The array after the run -/

/-- The output array ends as the gradient of the field as launched. -/
theorem final (c : Dev nD) : (dats m 0 c).arrAt 3 cfg0.N = grad (V m c main_arg0) :=
  (dats m 0 c).arrAt_eq_of_cover 3 (grad (V m c main_arg0)) (fun t _ => flushed_eq m c t) covered

/-- The run, read: every weakly fair execution terminates without a fault, the output array at the gradient of the field
    as launched and the field unchanged. -/
theorem run : θ_run defs (onTc (τ := τ) (main (F := Ideal))) ⟨m, fun _ => 0, ρ⟩ fun r => ∀ c : Dev nD,
      r.2.mem ((c.tc : Thread nD τ).loc main_v0) = grad (m ((c.tc : Thread nD τ).loc main_arg0))
      ∧ r.2.mem ((c.tc : Thread nD τ).loc main_arg0) = m ((c.tc : Thread nD τ).loc main_arg0) :=
  (θ_run defs _ _).mono (fun r h c => ⟨(h c 3).trans (final m c),
      (h c 0).trans (((dats m 0 c).arrAt_in 0 rfl _).trans (A_eq m c 0))⟩)
    (run_main m ρ)

end Cert.KernelIdeal.Stencil

end
-- ==== Proof.RefIsGrad.lean ====
/-
  The reference program's last stage is the periodic central difference.

  The reference builds each of the three components in the same way. Along one spatial axis it forms two shifted copies
  of the field: the copy whose entry at coordinate c is the field's entry at c + 1, the last coordinate reading the
  first (the rows 1 … 255 followed by row 0), and the copy whose entry at c is the field's entry at c − 1, the first
  coordinate reading the last (row 255 followed by the rows 0 … 254). Their difference is divided by the constant 2.
  Each component then gets a unit axis after the batch axis, and the three are laid side by side along it.

  So at batch b, component k, site (p, q, r) the reference reads: the piece k of the outer join at its only position on
  the joined axis, that is component k's quotient at (b, p, q, r); the quotient's numerator is the forward copy minus
  the backward copy, and each copy is one of two slices of the field, chosen by whether the shifted coordinate wraps.
  The forward copy at coordinate c < 255 is the slice from 1 at c, the field at 1 + c = (c + 1) mod 256, and at c = 255
  the slice [0, 1) at 0, the field at 0 = (255 + 1) mod 256. The backward copy at c = 0 is the slice [255, 256) at 0, the
  field at 255 = (0 + 255) mod 256, and at c > 0 the slice [0, 255) at c − 1, the field at c − 1 = (c + 255) mod 256.
  A quotient by the word for 2 is a product with the word for ½ on every extended real, which is the specification's form.
-/
import proofs.«105765_j85263690760521_2_alg».proof.Proof.Gen.ReferenceIdeal.Read
import proofs.«105765_j85263690760521_2_alg».proof.Proof.Spec
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic
  Idealize.ShloMosaic.ValueIdx Cert.CentralDiff

/-- The field as the reference program takes it. -/
abbrev Arg : Type := (⟨S4x256x256x256, .f32⟩ : BufTy).Contents (Elt Ideal)

/-! ## The six shifted copies, each read at a site -/

/-- Axis 1, forward: the copy's entry at coordinate p is the field's entry at the forward neighbour of p. -/
theorem roll_fwd_x (x : Arg) (b : Fin 4) (p q r : Fin 256) :
    val_main_v0 (F := Ideal) x (ix4 b p q r) = x (ix4 b (up p) q r) := by
  unfold val_main_v0
  by_cases h : p.val < 255
  · -- below the last coordinate: the slice from 1, at p, is the field at 1 + p
    refine (concatenate_pair_apply_left (t := S4x256x256x256) (s₁ := S4x255x256x256) (s₂ := S4x1x256x256) 1 _ _ _
      (ix4 b p q r) rfl (ix4 b (⟨p.val, h⟩ : Fin 255) q r) (fun a => by
        match a with
        | ⟨0, _⟩ => rfl
        | ⟨1, _⟩ => rfl
        | ⟨2, _⟩ => rfl
        | ⟨3, _⟩ => rfl)).trans ?_
    refine (val_main_call0_v0_apply x _).trans ?_
    exact congrArg x (funext fun a => Fin.ext (by
      match a with
      | ⟨0, _⟩ => rfl
      | ⟨1, _⟩ => show 1 + p.val = (p.val + 1) % 256; omega
      | ⟨2, _⟩ => rfl
      | ⟨3, _⟩ => rfl))
  · -- the last coordinate: the one-wide slice [0, 1) at 0 is the field at 0, the forward neighbour of 255
    have h' : p.val = 255 := by have := p.isLt; omega
    refine (concatenate_pair_apply_right (t := S4x256x256x256) (s₁ := S4x255x256x256) (s₂ := S4x1x256x256) 1 _ _ _
      (ix4 b p q r) rfl rfl (ix4 b (⟨0, by decide⟩ : Fin 1) q r) (fun a ha => by
        match a with
        | ⟨0, _⟩ => rfl
        | ⟨1, _⟩ => exact absurd rfl ha
        | ⟨2, _⟩ => rfl
        | ⟨3, _⟩ => rfl) (by show 0 + 255 = p.val; omega)).trans ?_
    refine (val_main_call0_v1_apply x _).trans ?_
    exact congrArg x (funext fun a => Fin.ext (by
      match a with
      | ⟨0, _⟩ => rfl
      | ⟨1, _⟩ => show 0 = (p.val + 1) % 256; omega
      | ⟨2, _⟩ => rfl
      | ⟨3, _⟩ => rfl))

/-- Axis 1, backward: the copy's entry at coordinate p is the field's entry at the backward neighbour of p. -/
theorem roll_bwd_x (x : Arg) (b : Fin 4) (p q r : Fin 256) :
    val_main_v1 (F := Ideal) x (ix4 b p q r) = x (ix4 b (dn p) q r) := by
  unfold val_main_v1
  by_cases h : p.val = 0
  · -- the first coordinate: the one-wide slice [255, 256) at 0 is the field at 255, the backward neighbour of 0
    refine (concatenate_pair_apply_left (t := S4x256x256x256) (s₁ := S4x1x256x256) (s₂ := S4x255x256x256) 1 _ _ _
      (ix4 b p q r) rfl (ix4 b (⟨0, by decide⟩ : Fin 1) q r) (fun a => by
        match a with
        | ⟨0, _⟩ => rfl
        | ⟨1, _⟩ => exact h.symm
        | ⟨2, _⟩ => rfl
        | ⟨3, _⟩ => rfl)).trans ?_
    refine (val_main_call1_v0_apply x _).trans ?_
    exact congrArg x (funext fun a => Fin.ext (by
      match a with
      | ⟨0, _⟩ => rfl
      | ⟨1, _⟩ => show 255 + 0 = (p.val + 255) % 256; omega
      | ⟨2, _⟩ => rfl
      | ⟨3, _⟩ => rfl))
  · -- past the first coordinate: the slice [0, 255) at p − 1 is the field at p − 1
    have h' : p.val - 1 < 255 := by have := p.isLt; omega
    refine (concatenate_pair_apply_right (t := S4x256x256x256) (s₁ := S4x1x256x256) (s₂ := S4x255x256x256) 1 _ _ _
      (ix4 b p q r) rfl rfl (ix4 b (⟨p.val - 1, h'⟩ : Fin 255) q r) (fun a ha => by
        match a with
        | ⟨0, _⟩ => rfl
        | ⟨1, _⟩ => exact absurd rfl ha
        | ⟨2, _⟩ => rfl
        | ⟨3, _⟩ => rfl) (by show (p.val - 1) + 1 = p.val; omega)).trans ?_
    refine (val_main_call1_v1_apply x _).trans ?_
    exact congrArg x (funext fun a => Fin.ext (by
      match a with
      | ⟨0, _⟩ => rfl
      | ⟨1, _⟩ => show p.val - 1 = (p.val + 255) % 256; omega
      | ⟨2, _⟩ => rfl
      | ⟨3, _⟩ => rfl))

/-- Axis 2, forward: the copy's entry at coordinate q is the field's entry at the forward neighbour of q. -/
theorem roll_fwd_y (x : Arg) (b : Fin 4) (p q r : Fin 256) :
    val_main_v5 (F := Ideal) x (ix4 b p q r) = x (ix4 b p (up q) r) := by
  unfold val_main_v5
  by_cases h : q.val < 255
  · -- below the last coordinate: the slice from 1, at q, is the field at 1 + q
    refine (concatenate_pair_apply_left (t := S4x256x256x256) (s₁ := S4x256x255x256) (s₂ := S4x256x1x256) 2 _ _ _
      (ix4 b p q r) rfl (ix4 b p (⟨q.val, h⟩ : Fin 255) r) (fun a => by
        match a with
        | ⟨0, _⟩ => rfl
        | ⟨1, _⟩ => rfl
        | ⟨2, _⟩ => rfl
        | ⟨3, _⟩ => rfl)).trans ?_
    refine (val_main_call2_v0_apply x _).trans ?_
    exact congrArg x (funext fun a => Fin.ext (by
      match a with
      | ⟨0, _⟩ => rfl
      | ⟨1, _⟩ => rfl
      | ⟨2, _⟩ => show 1 + q.val = (q.val + 1) % 256; omega
      | ⟨3, _⟩ => rfl))
  · -- the last coordinate: the one-wide slice [0, 1) at 0 is the field at 0, the forward neighbour of 255
    have h' : q.val = 255 := by have := q.isLt; omega
    refine (concatenate_pair_apply_right (t := S4x256x256x256) (s₁ := S4x256x255x256) (s₂ := S4x256x1x256) 2 _ _ _
      (ix4 b p q r) rfl rfl (ix4 b p (⟨0, by decide⟩ : Fin 1) r) (fun a ha => by
        match a with
        | ⟨0, _⟩ => rfl
        | ⟨1, _⟩ => rfl
        | ⟨2, _⟩ => exact absurd rfl ha
        | ⟨3, _⟩ => rfl) (by show 0 + 255 = q.val; omega)).trans ?_
    refine (val_main_call2_v1_apply x _).trans ?_
    exact congrArg x (funext fun a => Fin.ext (by
      match a with
      | ⟨0, _⟩ => rfl
      | ⟨1, _⟩ => rfl
      | ⟨2, _⟩ => show 0 = (q.val + 1) % 256; omega
      | ⟨3, _⟩ => rfl))

/-- Axis 2, backward: the copy's entry at coordinate q is the field's entry at the backward neighbour of q. -/
theorem roll_bwd_y (x : Arg) (b : Fin 4) (p q r : Fin 256) :
    val_main_v6 (F := Ideal) x (ix4 b p q r) = x (ix4 b p (dn q) r) := by
  unfold val_main_v6
  by_cases h : q.val = 0
  · -- the first coordinate: the one-wide slice [255, 256) at 0 is the field at 255, the backward neighbour of 0
    refine (concatenate_pair_apply_left (t := S4x256x256x256) (s₁ := S4x256x1x256) (s₂ := S4x256x255x256) 2 _ _ _
      (ix4 b p q r) rfl (ix4 b p (⟨0, by decide⟩ : Fin 1) r) (fun a => by
        match a with
        | ⟨0, _⟩ => rfl
        | ⟨1, _⟩ => rfl
        | ⟨2, _⟩ => exact h.symm
        | ⟨3, _⟩ => rfl)).trans ?_
    refine (val_main_call3_v0_apply x _).trans ?_
    exact congrArg x (funext fun a => Fin.ext (by
      match a with
      | ⟨0, _⟩ => rfl
      | ⟨1, _⟩ => rfl
      | ⟨2, _⟩ => show 255 + 0 = (q.val + 255) % 256; omega
      | ⟨3, _⟩ => rfl))
  · -- past the first coordinate: the slice [0, 255) at q − 1 is the field at q − 1
    have h' : q.val - 1 < 255 := by have := q.isLt; omega
    refine (concatenate_pair_apply_right (t := S4x256x256x256) (s₁ := S4x256x1x256) (s₂ := S4x256x255x256) 2 _ _ _
      (ix4 b p q r) rfl rfl (ix4 b p (⟨q.val - 1, h'⟩ : Fin 255) r) (fun a ha => by
        match a with
        | ⟨0, _⟩ => rfl
        | ⟨1, _⟩ => rfl
        | ⟨2, _⟩ => exact absurd rfl ha
        | ⟨3, _⟩ => rfl) (by show (q.val - 1) + 1 = q.val; omega)).trans ?_
    refine (val_main_call3_v1_apply x _).trans ?_
    exact congrArg x (funext fun a => Fin.ext (by
      match a with
      | ⟨0, _⟩ => rfl
      | ⟨1, _⟩ => rfl
      | ⟨2, _⟩ => show q.val - 1 = (q.val + 255) % 256; omega
      | ⟨3, _⟩ => rfl))

/-- Axis 3, forward: the copy's entry at coordinate r is the field's entry at the forward neighbour of r. -/
theorem roll_fwd_z (x : Arg) (b : Fin 4) (p q r : Fin 256) :
    val_main_v10 (F := Ideal) x (ix4 b p q r) = x (ix4 b p q (up r)) := by
  unfold val_main_v10
  by_cases h : r.val < 255
  · -- below the last coordinate: the slice from 1, at r, is the field at 1 + r
    refine (concatenate_pair_apply_left (t := S4x256x256x256) (s₁ := S4x256x256x255) (s₂ := S4x256x256x1) 3 _ _ _
      (ix4 b p q r) rfl (ix4 b p q (⟨r.val, h⟩ : Fin 255)) (fun a => by
        match a with
        | ⟨0, _⟩ => rfl
        | ⟨1, _⟩ => rfl
        | ⟨2, _⟩ => rfl
        | ⟨3, _⟩ => rfl)).trans ?_
    refine (val_main_call4_v0_apply x _).trans ?_
    exact congrArg x (funext fun a => Fin.ext (by
      match a with
      | ⟨0, _⟩ => rfl
      | ⟨1, _⟩ => rfl
      | ⟨2, _⟩ => rfl
      | ⟨3, _⟩ => show 1 + r.val = (r.val + 1) % 256; omega))
  · -- the last coordinate: the one-wide slice [0, 1) at 0 is the field at 0, the forward neighbour of 255
    have h' : r.val = 255 := by have := r.isLt; omega
    refine (concatenate_pair_apply_right (t := S4x256x256x256) (s₁ := S4x256x256x255) (s₂ := S4x256x256x1) 3 _ _ _
      (ix4 b p q r) rfl rfl (ix4 b p q (⟨0, by decide⟩ : Fin 1)) (fun a ha => by
        match a with
        | ⟨0, _⟩ => rfl
        | ⟨1, _⟩ => rfl
        | ⟨2, _⟩ => rfl
        | ⟨3, _⟩ => exact absurd rfl ha) (by show 0 + 255 = r.val; omega)).trans ?_
    refine (val_main_call4_v1_apply x _).trans ?_
    exact congrArg x (funext fun a => Fin.ext (by
      match a with
      | ⟨0, _⟩ => rfl
      | ⟨1, _⟩ => rfl
      | ⟨2, _⟩ => rfl
      | ⟨3, _⟩ => show 0 = (r.val + 1) % 256; omega))

/-- Axis 3, backward: the copy's entry at coordinate r is the field's entry at the backward neighbour of r. -/
theorem roll_bwd_z (x : Arg) (b : Fin 4) (p q r : Fin 256) :
    val_main_v11 (F := Ideal) x (ix4 b p q r) = x (ix4 b p q (dn r)) := by
  unfold val_main_v11
  by_cases h : r.val = 0
  · -- the first coordinate: the one-wide slice [255, 256) at 0 is the field at 255, the backward neighbour of 0
    refine (concatenate_pair_apply_left (t := S4x256x256x256) (s₁ := S4x256x256x1) (s₂ := S4x256x256x255) 3 _ _ _
      (ix4 b p q r) rfl (ix4 b p q (⟨0, by decide⟩ : Fin 1)) (fun a => by
        match a with
        | ⟨0, _⟩ => rfl
        | ⟨1, _⟩ => rfl
        | ⟨2, _⟩ => rfl
        | ⟨3, _⟩ => exact h.symm)).trans ?_
    refine (val_main_call5_v0_apply x _).trans ?_
    exact congrArg x (funext fun a => Fin.ext (by
      match a with
      | ⟨0, _⟩ => rfl
      | ⟨1, _⟩ => rfl
      | ⟨2, _⟩ => rfl
      | ⟨3, _⟩ => show 255 + 0 = (r.val + 255) % 256; omega))
  · -- past the first coordinate: the slice [0, 255) at r − 1 is the field at r − 1
    have h' : r.val - 1 < 255 := by have := r.isLt; omega
    refine (concatenate_pair_apply_right (t := S4x256x256x256) (s₁ := S4x256x256x1) (s₂ := S4x256x256x255) 3 _ _ _
      (ix4 b p q r) rfl rfl (ix4 b p q (⟨r.val - 1, h'⟩ : Fin 255)) (fun a ha => by
        match a with
        | ⟨0, _⟩ => rfl
        | ⟨1, _⟩ => rfl
        | ⟨2, _⟩ => rfl
        | ⟨3, _⟩ => exact absurd rfl ha) (by show (r.val - 1) + 1 = r.val; omega)).trans ?_
    refine (val_main_call5_v1_apply x _).trans ?_
    exact congrArg x (funext fun a => Fin.ext (by
      match a with
      | ⟨0, _⟩ => rfl
      | ⟨1, _⟩ => rfl
      | ⟨2, _⟩ => rfl
      | ⟨3, _⟩ => show r.val - 1 = (r.val + 255) % 256; omega))

/-! ## The three quotients, each read at a site -/

/-- Axis 1: the forward copy minus the backward copy, divided by the constant 2, is the difference of the two
    neighbours times ½. -/
theorem comp_x (x : Arg) (b : Fin 4) (p q r : Fin 256) :
    val_main_v4 (F := Ideal) x (ix4 b p q r)
      = (x (ix4 b (up p) q r) - x (ix4 b (dn p) q r)) * half := by
  refine (val_main_v4_apply x _).trans ?_
  rw [val_main_v2_apply, val_main_v3_apply, val_main_cst_apply, roll_fwd_x, roll_bwd_x]
  exact div_two_eq_mul_half _

/-- Axis 2: the forward copy minus the backward copy, divided by the constant 2, is the difference of the two
    neighbours times ½. -/
theorem comp_y (x : Arg) (b : Fin 4) (p q r : Fin 256) :
    val_main_v9 (F := Ideal) x (ix4 b p q r)
      = (x (ix4 b p (up q) r) - x (ix4 b p (dn q) r)) * half := by
  refine (val_main_v9_apply x _).trans ?_
  rw [val_main_v7_apply, val_main_v8_apply, val_main_cst_0_apply, roll_fwd_y, roll_bwd_y]
  exact div_two_eq_mul_half _

/-- Axis 3: the forward copy minus the backward copy, divided by the constant 2, is the difference of the two
    neighbours times ½. -/
theorem comp_z (x : Arg) (b : Fin 4) (p q r : Fin 256) :
    val_main_v14 (F := Ideal) x (ix4 b p q r)
      = (x (ix4 b p q (up r)) - x (ix4 b p q (dn r))) * half := by
  refine (val_main_v14_apply x _).trans ?_
  rw [val_main_v12_apply, val_main_v13_apply, val_main_cst_1_apply, roll_fwd_z, roll_bwd_z]
  exact div_two_eq_mul_half _

/-! ## The last stage is the gradient -/

/-- The reference's result, as a function of the field, is the periodic central difference of the field. -/
theorem ref_eq_grad (x : (⟨Cert.ReferenceIdeal.S4x256x256x256, .f32⟩ : BufTy).Contents (Elt Ideal)) :
    Cert.ReferenceIdeal.Read.val_main_v18 (F := Ideal) x = Cert.CentralDiff.grad x := by
  funext j
  obtain ⟨b, k, p, q, r, rfl⟩ : ∃ (b : Fin 4) (k : Fin 3) (p q r : Fin 256), j = ix5 b k p q r :=
    ⟨j 0, j 1, j 2, j 3, j 4, eq_ix5 j⟩
  rw [grad_ix5]
  unfold val_main_v18
  match k with
  | ⟨0, _⟩ =>
    -- piece 0 of the join spans position 0 of the component axis; it is read at its only position there
    refine (concatenate_apply_piece (t := S4x3x256x256x256) 1 _ _ (ix5 b ⟨0, by decide⟩ p q r) 0 (by show (0 : Nat) < 3; decide)
      S4x1x256x256x256 (val_main_v15 (F := Ideal) x) rfl rfl 0 rfl (ix5 b (⟨0, by decide⟩ : Fin 1) p q r) (fun a ha => by
        match a with
        | ⟨0, _⟩ => rfl
        | ⟨1, _⟩ => exact absurd rfl ha
        | ⟨2, _⟩ => rfl
        | ⟨3, _⟩ => rfl
        | ⟨4, _⟩ => rfl) rfl).trans ?_
    refine (val_main_v15_apply x _).trans ?_
    refine Eq.trans (congrArg _ (funext fun a => by
      match a with
      | ⟨0, _⟩ => rfl
      | ⟨1, _⟩ => rfl
      | ⟨2, _⟩ => rfl
      | ⟨3, _⟩ => rfl)) (comp_x x b p q r)
  | ⟨1, _⟩ =>
    -- piece 1 of the join spans position 1 of the component axis; it is read at its only position there
    refine (concatenate_apply_piece (t := S4x3x256x256x256) 1 _ _ (ix5 b ⟨1, by decide⟩ p q r) 1 (by show (1 : Nat) < 3; decide)
      S4x1x256x256x256 (val_main_v16 (F := Ideal) x) rfl rfl 1 rfl (ix5 b (⟨0, by decide⟩ : Fin 1) p q r) (fun a ha => by
        match a with
        | ⟨0, _⟩ => rfl
        | ⟨1, _⟩ => exact absurd rfl ha
        | ⟨2, _⟩ => rfl
        | ⟨3, _⟩ => rfl
        | ⟨4, _⟩ => rfl) rfl).trans ?_
    refine (val_main_v16_apply x _).trans ?_
    refine Eq.trans (congrArg _ (funext fun a => by
      match a with
      | ⟨0, _⟩ => rfl
      | ⟨1, _⟩ => rfl
      | ⟨2, _⟩ => rfl
      | ⟨3, _⟩ => rfl)) (comp_y x b p q r)
  | ⟨2, _⟩ =>
    -- piece 2 of the join spans position 2 of the component axis; it is read at its only position there
    refine (concatenate_apply_piece (t := S4x3x256x256x256) 1 _ _ (ix5 b ⟨2, by decide⟩ p q r) 2 (by show (2 : Nat) < 3; decide)
      S4x1x256x256x256 (val_main_v17 (F := Ideal) x) rfl rfl 2 rfl (ix5 b (⟨0, by decide⟩ : Fin 1) p q r) (fun a ha => by
        match a with
        | ⟨0, _⟩ => rfl
        | ⟨1, _⟩ => exact absurd rfl ha
        | ⟨2, _⟩ => rfl
        | ⟨3, _⟩ => rfl
        | ⟨4, _⟩ => rfl) rfl).trans ?_
    refine (val_main_v17_apply x _).trans ?_
    refine Eq.trans (congrArg _ (funext fun a => by
      match a with
      | ⟨0, _⟩ => rfl
      | ⟨1, _⟩ => rfl
      | ⟨2, _⟩ => rfl
      | ⟨3, _⟩ => rfl)) (comp_z x b p q r)

end Cert.ReferenceIdeal.RefValue

end
-- ==== Proof.lean ====
/-
  A periodic central-difference gradient, computed slab by slab, against the same gradient computed by whole-array shifts.

  The kernel walks a grid of 4 batches × 32 slabs of eight planes. At each point it holds one slab of the field and the two
  planes next to it (around the end of the axis), and writes the three gradient components of the slab: along the slab axis
  from the slab shifted one plane either way, along the two in-plane axes from rotations of the slab by one position either
  way; each difference is multiplied by ½. The reference shifts the whole field by one position either way along each of the
  three axes (the last entry wrapping to the first), subtracts, divides by 2, and stacks the three results.

  Over the extended reals both compute, at batch `b`, component `k`, site `(p, q, r)`,

      (field at the forward neighbour along axis k  −  field at the backward neighbour along axis k) · ½

  (`Cert.CentralDiff.grad`): the kernel's blocks are blocks of that one array and tile it, the reference's shifts read the
  same two neighbours, and a quotient by 2 is a product with ½ on every extended real. No finiteness of the field is used:
  the two sides are the same expression of the same two entries.

  The three frames: each program terminates without a fault and leaves the field as launched — the kernel (at the word
  level and idealized) because the field is only ever fetched, its ownership dealt among the three windows that read it;
  the reference because it is a straight line of host operations writing other buffers. The kernel's idealization rewrote
  nothing, so there is nothing to preserve.
-/
import proofs.«105765_j85263690760521_2_alg».proof.Defs
import proofs.«105765_j85263690760521_2_alg».proof.Proof.Gen.Kernel
import proofs.«105765_j85263690760521_2_alg».proof.Proof.Gen.KernelIdeal
import proofs.«105765_j85263690760521_2_alg».proof.Proof.Gen.ReferenceIdeal
import proofs.«105765_j85263690760521_2_alg».proof.Proof.Gen.ReferenceIdeal.Run
import proofs.«105765_j85263690760521_2_alg».proof.Proof.Gen.ReferenceIdeal.Read
import proofs.«105765_j85263690760521_2_alg».proof.Proof.Gen.Pre_finite_inputs
import proofs.«105765_j85263690760521_2_alg».proof.Proof.KernelFrame
import proofs.«105765_j85263690760521_2_alg».proof.Proof.KernelIdealFrame
import proofs.«105765_j85263690760521_2_alg».proof.Proof.KernelIdealValue
import proofs.«105765_j85263690760521_2_alg».proof.Proof.RefIsGrad
import Idealize.ShloMosaic.Adequacy
import Idealize.ShloMosaic.Init

noncomputable section

namespace Cert.Proof

open Idealize.ShloMosaic Idealize.ShloMosaic.TcCoe Idealize.SL.Sem

/-- The word-level kernel runs and leaves the field as launched. -/
theorem frame_kernel : Cert.frame_Kernel := fun m ρ _ => Cert.Kernel.Stencil.frame m ρ

/-- So does the idealized kernel. -/
theorem frame_kernelIdeal : Cert.frame_KernelIdeal := fun m ρ _ => Cert.KernelIdeal.Stencil.frame m ρ

/-- The reference runs and leaves the field as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the field, both programs end with the field's periodic central-difference gradient. -/
theorem algebraic : Cert.algebraic_KernelIdeal_ReferenceIdeal := by
  intro m ρ m' ρ' _ hagree
  refine ⟨fun c => Cert.CentralDiff.grad (m ((c.tc : Thread Cert.KernelIdeal.nD Cert.KernelIdeal.τ).loc Cert.KernelIdeal.main_arg0)),
    Cert.KernelIdeal.Stencil.run m ρ, ?_⟩
  refine (θ_run Cert.ReferenceIdeal.defs _ _).mono (fun _ h c => ⟨?_, (h c).2⟩)
    (Cert.ReferenceIdeal.Value.run (F := Ideal) m' ρ')
  exact (h c).1.trans ((Cert.ReferenceIdeal.Read.val_main_v18_eq _).trans
    ((Cert.ReferenceIdeal.RefValue.ref_eq_grad _).trans (congrArg Cert.CentralDiff.grad (hagree c))))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
